-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v60)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v60) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v95) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x256 : Shape := ⟨2, ![100000, 256]⟩
abbrev S2x3200000 : Shape := ⟨2, ![2, 3200000]⟩
abbrev S256x64 : Shape := ⟨2, ![256, 64]⟩
abbrev S64 : Shape := ⟨1, ![64]⟩
abbrev S64x40 : Shape := ⟨2, ![64, 40]⟩
abbrev S40 : Shape := ⟨1, ![40]⟩
abbrev S_ : Shape := ⟨0, ![]⟩

class Facts : Prop where
  bcast_S_S100000x256 : S_.BroadcastsInDim S100000x256 (![] : Fin 0 → Fin S100000x256.rank)
  reducesTo_S100000x256_S_d0_1 : S100000x256.ReducesTo [0, 1] S_
  h_S_ : 0 < S_.numel
  bcast_S_S256x64 : S_.BroadcastsInDim S256x64 (![] : Fin 0 → Fin S256x64.rank)
  reducesTo_S256x64_S_d0_1 : S256x64.ReducesTo [0, 1] S_
  bcast_S_S64 : S_.BroadcastsInDim S64 (![] : Fin 0 → Fin S64.rank)
  reducesTo_S64_S_d0 : S64.ReducesTo [0] S_
  bcast_S_S64x40 : S_.BroadcastsInDim S64x40 (![] : Fin 0 → Fin S64x40.rank)
  reducesTo_S64x40_S_d0_1 : S64x40.ReducesTo [0, 1] S_
  bcast_S_S40 : S_.BroadcastsInDim S40 (![] : Fin 0 → Fin S40.rank)
  reducesTo_S40_S_d0 : S40.ReducesTo [0] S_

variable [Facts]

def fn_part1 {F : FTy → Type} [FloatOps F] (main_arg5 : FVec F S40 .f32) (main_v13 : IVec S_ 1) (main_v16 : IVec S64x40 1) : IVec S_ 1 :=
  let main_c_5 : IVec S_ 1 := constantI S_ 1 1#1
  let main_v17 : IVec S_ 1 := (fun x v => Host.reduce IntOp.andi x v reducesTo_S64x40_S_d0_1 h_S_) main_v16 main_c_5
  let main_v18 : IVec S_ 1 := andi main_v13 main_v17
  let main_v19 : FVec F S40 .f32 := Host.absf main_arg5
  let main_cst_6 : FVec F S_ .f32 := constant S_ .f32 0x7F800000#32
  let main_v20 : FVec F S40 .f32 := broadcastInDim S40 ![] bcast_S_S40 main_cst_6
  let main_v21 : IVec S40 1 := cmpf .olt main_v19 main_v20
  let main_c_7 : IVec S_ 1 := constantI S_ 1 1#1
  let main_v22 : IVec S_ 1 := (fun x v => Host.reduce IntOp.andi x v reducesTo_S40_S_d0 h_S_) main_v21 main_c_7
  let main_v23 : IVec S_ 1 := andi main_v18 main_v22
  main_v23

def fn {F : FTy → Type} [FloatOps F] (main_arg0 : FVec F S100000x256 .f32) (main_arg1 : IVec S2x3200000 32) (main_arg2 : FVec F S256x64 .f32) (main_arg3 : FVec F S64 .f32) (main_arg4 : FVec F S64x40 .f32) (main_arg5 : FVec F S40 .f32) : IVec S_ 1 :=
  let main_v0 : FVec F S100000x256 .f32 := Host.absf main_arg0
  let main_cst : FVec F S_ .f32 := constant S_ .f32 0x7F800000#32
  let main_v1 : FVec F S100000x256 .f32 := broadcastInDim S100000x256 ![] bcast_S_S100000x256 main_cst
  let main_v2 : IVec S100000x256 1 := cmpf .olt main_v0 main_v1
  let main_c : IVec S_ 1 := constantI S_ 1 1#1
  let main_v3 : IVec S_ 1 := (fun x v => Host.reduce IntOp.andi x v reducesTo_S100000x256_S_d0_1 h_S_) main_v2 main_c
  let main_v4 : FVec F S256x64 .f32 := Host.absf main_arg2
  let main_cst_0 : FVec F S_ .f32 := constant S_ .f32 0x7F800000#32
  let main_v5 : FVec F S256x64 .f32 := broadcastInDim S256x64 ![] bcast_S_S256x64 main_cst_0
  let main_v6 : IVec S256x64 1 := cmpf .olt main_v4 main_v5
  let main_c_1 : IVec S_ 1 := constantI S_ 1 1#1
  let main_v7 : IVec S_ 1 := (fun x v => Host.reduce IntOp.andi x v reducesTo_S256x64_S_d0_1 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x40 .f32 := Host.absf main_arg4
  let main_cst_4 : FVec F S_ .f32 := constant S_ .f32 0x7F800000#32
  let main_v15 : FVec F S64x40 .f32 := broadcastInDim S64x40 ![] bcast_S_S64x40 main_cst_4
  let main_v16 : IVec S64x40 1 := cmpf .olt main_v14 main_v15
  fn_part1 (F := F) main_arg5 main_v13 main_v16
-- ==== Kernel.lean ====
abbrev S100000x256 : Shape := ⟨2, ![100000, 256]⟩
abbrev S2x3200000 : Shape := ⟨2, ![2, 3200000]⟩
abbrev S256x64 : Shape := ⟨2, ![256, 64]⟩
abbrev S64 : Shape := ⟨1, ![64]⟩
abbrev S64x40 : Shape := ⟨2, ![64, 40]⟩
abbrev S40 : Shape := ⟨1, ![40]⟩
abbrev S100000 : Shape := ⟨1, ![100000]⟩
abbrev S1x3200000 : Shape := ⟨2, ![1, 3200000]⟩
abbrev S3200000 : Shape := ⟨1, ![3200000]⟩
abbrev S3300000 : Shape := ⟨1, ![3300000]⟩
abbrev S_ : Shape := ⟨0, ![]⟩
abbrev S3300000x1 : Shape := ⟨2, ![3300000, 1]⟩
abbrev S100000x64 : Shape := ⟨2, ![100000, 64]⟩
abbrev S5000x256 : Shape := ⟨2, ![5000, 256]⟩
abbrev S5000x64 : Shape := ⟨2, ![5000, 64]⟩
abbrev S3300000x64 : Shape := ⟨2, ![3300000, 64]⟩
abbrev S1x64 : Shape := ⟨2, ![1, 64]⟩
abbrev S100000x40 : Shape := ⟨2, ![100000, 40]⟩
abbrev S5000x40 : Shape := ⟨2, ![5000, 40]⟩
abbrev S3300000x40 : Shape := ⟨2, ![3300000, 40]⟩
abbrev S1x40 : Shape := ⟨2, ![1, 40]⟩
abbrev S5000 : Shape := ⟨1, ![5000]⟩
abbrev S5000x1 : Shape := ⟨2, ![5000, 1]⟩

abbrev nBuf : Space → Nat
  | .hbm => 83
  | .vmem => 16
  | .smem => 0
  | _ => 0

abbrev bufTy : (tb : Table) → Fin (tcTables nBuf tb) → BufTy
  | .hbm, ⟨0, _⟩ => ⟨S100000x256, .f32⟩
  | .hbm, ⟨1, _⟩ => ⟨S2x3200000, .i32⟩
  | .hbm, ⟨2, _⟩ => ⟨S256x64, .f32⟩
  | .hbm, ⟨3, _⟩ => ⟨S64, .f32⟩
  | .hbm, ⟨4, _⟩ => ⟨S64x40, .f32⟩
  | .hbm, ⟨5, _⟩ => ⟨S40, .f32⟩
  | .hbm, ⟨6, _⟩ => ⟨S100000, .i32⟩
  | .hbm, ⟨7, _⟩ => ⟨S1x3200000, .i32⟩
  | .hbm, ⟨8, _⟩ => ⟨S3200000, .i32⟩
  | .hbm, ⟨9, _⟩ => ⟨S3300000, .i32⟩
  | .hbm, ⟨10, _⟩ => ⟨S1x3200000, .i32⟩
  | .hbm, ⟨11, _⟩ => ⟨S3200000, .i32⟩
  | .hbm, ⟨12, _⟩ => ⟨S3300000, .i32⟩
  | .hbm, ⟨13, _⟩ => ⟨S_, .f32⟩
  | .hbm, ⟨14, _⟩ => ⟨S3300000, .f32⟩
  | .hbm, ⟨15, _⟩ => ⟨S_, .f32⟩
  | .hbm, ⟨16, _⟩ => ⟨S100000, .f32⟩
  | .hbm, ⟨17, _⟩ => ⟨S3300000x1, .i32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S100000, .i1⟩
  | .hbm, ⟨22, _⟩ => ⟨S_, .f32⟩
  | .hbm, ⟨23, _⟩ => ⟨S_, .f32⟩
  | .hbm, ⟨24, _⟩ => ⟨S100000, .f32⟩
  | .hbm, ⟨25, _⟩ => ⟨S100000, .f32⟩
  | .hbm, ⟨26, _⟩ => ⟨S100000, .f32⟩
  | .hbm, ⟨27, _⟩ => ⟨S_, .i32⟩
  | .hbm, ⟨28, _⟩ => ⟨S3300000, .i32⟩
  | .hbm, ⟨29, _⟩ => ⟨S3300000, .i1⟩
  | .hbm, ⟨30, _⟩ => ⟨S_, .i32⟩
  | .hbm, ⟨31, _⟩ => ⟨S3300000, .i32⟩
  | .hbm, ⟨32, _⟩ => ⟨S3300000, .i32⟩
  | .hbm, ⟨33, _⟩ => ⟨S3300000, .i32⟩
  | .hbm, ⟨34, _⟩ => ⟨S3300000x1, .i32⟩
  | .hbm, ⟨35, _⟩ => ⟨S3300000, .f32⟩
  | .hbm, ⟨36, _⟩ => ⟨S_, .i32⟩
  | .hbm, ⟨37, _⟩ => ⟨S3300000, .i32⟩
  | .hbm, ⟨38, _⟩ => ⟨S3300000, .i1⟩
  | .hbm, ⟨39, _⟩ => ⟨S_, .i32⟩
  | .hbm, ⟨40, _⟩ => ⟨S3300000, .i32⟩
  | .hbm, ⟨41, _⟩ => ⟨S3300000, .i32⟩
  | .hbm, ⟨42, _⟩ => ⟨S3300000, .i32⟩
  | .hbm, ⟨43, _⟩ => ⟨S3300000x1, .i32⟩
  | .hbm, ⟨44, _⟩ => ⟨S3300000, .f32⟩
  | .hbm, ⟨45, _⟩ => ⟨S3300000, .f32⟩
  | .hbm, ⟨46, _⟩ => ⟨S100000x64, .f32⟩
  | .hbm, ⟨47, _⟩ => ⟨S_, .i32⟩
  | .hbm, ⟨48, _⟩ => ⟨S3300000, .i32⟩
  | .hbm, ⟨49, _⟩ => ⟨S3300000, .i1⟩
  | .hbm, ⟨50, _⟩ => ⟨S_, .i32⟩
  | .hbm, ⟨51, _⟩ => ⟨S3300000, .i32⟩
  | .hbm, ⟨52, _⟩ => ⟨S3300000, .i32⟩
  | .hbm, ⟨53, _⟩ => ⟨S3300000, .i32⟩
  | .hbm, ⟨54, _⟩ => ⟨S3300000x1, .i32⟩
  | .hbm, ⟨55, _⟩ => ⟨S3300000x64, .f32⟩
  | .hbm, ⟨56, _⟩ => ⟨S3300000x1, .f32⟩
  | .hbm, ⟨57, _⟩ => ⟨S3300000x64, .f32⟩
  | .hbm, ⟨58, _⟩ => ⟨S3300000x64, .f32⟩
  | .hbm, ⟨59, _⟩ => ⟨S_, .f32⟩
  | .hbm, ⟨60, _⟩ => ⟨S100000x64, .f32⟩
  | .hbm, ⟨61, _⟩ => ⟨S3300000x1, .i32⟩
  | .hbm, ⟨62, _⟩ => ⟨S100000x64, .f32⟩
  | .hbm, ⟨63, _⟩ => ⟨S1x64, .f32⟩
  | .hbm, ⟨64, _⟩ => ⟨S100000x40, .f32⟩
  | .hbm, ⟨65, _⟩ => ⟨S_, .i32⟩
  | .hbm, ⟨66, _⟩ => ⟨S3300000, .i32⟩
  | .hbm, ⟨67, _⟩ => ⟨S3300000, .i1⟩
  | .hbm, ⟨68, _⟩ => ⟨S_, .i32⟩
  | .hbm, ⟨69, _⟩ => ⟨S3300000, .i32⟩
  | .hbm, ⟨70, _⟩ => ⟨S3300000, .i32⟩
  | .hbm, ⟨71, _⟩ => ⟨S3300000, .i32⟩
  | .hbm, ⟨72, _⟩ => ⟨S3300000x1, .i32⟩
  | .hbm, ⟨73, _⟩ => ⟨S3300000x40, .f32⟩
  | .hbm, ⟨74, _⟩ => ⟨S3300000x1, .f32⟩
  | .hbm, ⟨75, _⟩ => ⟨S3300000x40, .f32⟩
  | .hbm, ⟨76, _⟩ => ⟨S3300000x40, .f32⟩
  | .hbm, ⟨77, _⟩ => ⟨S_, .f32⟩
  | .hbm, ⟨78, _⟩ => ⟨S100000x40, .f32⟩
  | .hbm, ⟨79, _⟩ => ⟨S3300000x1, .i32⟩
  | .hbm, ⟨80, _⟩ => ⟨S100000x40, .f32⟩
  | .hbm, ⟨81, _⟩ => ⟨S1x40, .f32⟩
  | .hbm, ⟨82, _⟩ => ⟨S100000x40, .f32⟩
  | .local _ .vmem, ⟨0, _⟩ => ⟨S5000x256, .f32⟩
  | .local _ .vmem, ⟨1, _⟩ => ⟨S5000x256, .f32⟩
  | .local _ .vmem, ⟨2, _⟩ => ⟨S256x64, .f32⟩
  | .local _ .vmem, ⟨3, _⟩ => ⟨S5000x64, .f32⟩
  | .local _ .vmem, ⟨4, _⟩ => ⟨S5000x64, .f32⟩
  | .local _ .vmem, ⟨5, _⟩ => ⟨S5000x64, .f32⟩
  | .local _ .vmem, ⟨6, _⟩ => ⟨S5000x64, .f32⟩
  | .local _ .vmem, ⟨7, _⟩ => ⟨S1x64, .f32⟩
  | .local _ .vmem, ⟨8, _⟩ => ⟨S64x40, .f32⟩
  | .local _ .vmem, ⟨9, _⟩ => ⟨S5000x40, .f32⟩
  | .local _ .vmem, ⟨10, _⟩ => ⟨S5000x40, .f32⟩
  | .local _ .vmem, ⟨11, _⟩ => ⟨S5000x40, .f32⟩
  | .local _ .vmem, ⟨12, _⟩ => ⟨S5000x40, .f32⟩
  | .local _ .vmem, ⟨13, _⟩ => ⟨S1x40, .f32⟩
  | .local _ .vmem, ⟨14, _⟩ => ⟨S5000x40, .f32⟩
  | .local _ .vmem, ⟨15, _⟩ => ⟨S5000x40, .f32⟩
  | _, _ => ⟨S100000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_cst_2 : Ref sig .tc := ⟨.hbm, 22, rfl⟩
abbrev main_call0_v0 : Ref sig .tc := ⟨.hbm, 23, rfl⟩
abbrev main_call0_v1 : Ref sig .tc := ⟨.hbm, 24, rfl⟩
abbrev main_v13 : Ref sig .tc := ⟨.hbm, 25, rfl⟩
abbrev main_v14 : Ref sig .tc := ⟨.hbm, 26, rfl⟩
abbrev main_c : Ref sig .tc := ⟨.hbm, 27, rfl⟩
abbrev main_v15 : Ref sig .tc := ⟨.hbm, 28, rfl⟩
abbrev main_v16 : Ref sig .tc := ⟨.hbm, 29, rfl⟩
abbrev main_c_3 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_c_4 : Ref sig .tc := ⟨.hbm, 36, rfl⟩
abbrev main_v22 : Ref sig .tc := ⟨.hbm, 37, rfl⟩
abbrev main_v23 : Ref sig .tc := ⟨.hbm, 38, rfl⟩
abbrev main_c_5 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_c_6 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_8 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_c_9 : Ref sig .tc := ⟨.hbm, 65, rfl⟩
abbrev main_v46 : Ref sig .tc := ⟨.hbm, 66, rfl⟩
abbrev main_v47 : Ref sig .tc := ⟨.hbm, 67, rfl⟩
abbrev main_c_10 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_cst_11 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg3_1 : Ref sig .tc := ⟨.vmem, 10, rfl⟩
abbrev cc2_stg0_0 : Ref sig .tc := ⟨.vmem, 11, rfl⟩
abbrev cc2_stg0_1 : Ref sig .tc := ⟨.vmem, 12, rfl⟩
abbrev cc2_stg1_0 : Ref sig .tc := ⟨.vmem, 13, rfl⟩
abbrev cc2_stg2_0 : Ref sig .tc := ⟨.vmem, 14, rfl⟩
abbrev cc2_stg2_1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc1_sem3_1 : DmaSem sig := 10
abbrev cc2_sem0_0 : DmaSem sig := 11
abbrev cc2_sem0_1 : DmaSem sig := 12
abbrev cc2_sem1_0 : DmaSem sig := 13
abbrev cc2_sem2_0 : DmaSem sig := 14
abbrev cc2_sem2_1 : DmaSem sig := 15

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S64x40 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S5000x40 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x40 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x40 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S5000x40 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

class Facts₀ : Prop where
  slices_S2x3200000_S1x3200000_0_0 : S2x3200000.Slices ![0, 0] S1x3200000
  shapeCasts_S1x3200000_S3200000 : S1x3200000.ShapeCasts S3200000
  concatenates_S3200000_S100000_S3300000_d0 : Shape.Concatenates [S3200000, S100000] S3300000 0
  slices_S2x3200000_S1x3200000_1_0 : S2x3200000.Slices ![1, 0] S1x3200000
  bcast_S_S3300000 : S_.BroadcastsInDim S3300000 (![] : Fin 0 → Fin S3300000.rank)
  bcast_S_S100000 : S_.BroadcastsInDim S100000 (![] : Fin 0 → Fin S100000.rank)
  bcast_S3300000_S3300000x1_0 : S3300000.BroadcastsInDim S3300000x1 (![0] : Fin 1 → Fin S3300000x1.rank)
  inb_S5000x256_S5000x256_0_0 : ∀ a, (![0, 0] : Fin 2 → Nat) a + S5000x256.size a ≤ S5000x256.size a
  h_S5000x256 : 0 < S5000x256.numel
  bitsLt_bf16_f32 : FTy.bits .bf16 < FTy.bits .f32
  inb_S256x64_S256x64_0_0 : ∀ a, (![0, 0] : Fin 2 → Nat) a + S256x64.size a ≤ S256x64.size a
  h_S256x64 : 0 < S256x64.numel
  inb_S5000x64_S5000x64_0_0 : ∀ a, (![0, 0] : Fin 2 → Nat) a + S5000x64.size a ≤ S5000x64.size a
  h_S5000x64 : 0 < S5000x64.numel
  bcast_S3300000x1_S3300000x64_0_1 : S3300000x1.BroadcastsInDim S3300000x64 (![0, 1] : Fin 2 → Fin S3300000x64.rank)
  bcast_S_S100000x64 : S_.BroadcastsInDim S100000x64 (![] : Fin 0 → Fin S100000x64.rank)
  shapeCasts_S64_S1x64 : S64.ShapeCasts S1x64
  shapeCasts_S5000x64_S5000x64 : S5000x64.ShapeCasts S5000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  inb_S64x40_S64x40_0_0 : ∀ a, (![0, 0] : Fin 2 → Nat) a + S64x40.size a ≤ S64x40.size a
  h_S64x40 : 0 < S64x40.numel
  inb_S5000x40_S5000x40_0_0 : ∀ a, (![0, 0] : Fin 2 → Nat) a + S5000x40.size a ≤ S5000x40.size a
  h_S5000x40 : 0 < S5000x40.numel
  bcast_S3300000x1_S3300000x40_0_1 : S3300000x1.BroadcastsInDim S3300000x40 (![0, 1] : Fin 2 → Fin S3300000x40.rank)
  bcast_S_S100000x40 : S_.BroadcastsInDim S100000x40 (![] : Fin 0 → Fin S100000x40.rank)
  shapeCasts_S40_S1x40 : S40.ShapeCasts S1x40
  shapeCasts_S5000x40_S5000x40 : S5000x40.ShapeCasts S5000x40
  inb_S1x40_S1x40_0_0 : ∀ a, (![0, 0] : Fin 2 → Nat) a + S1x40.size a ≤ S1x40.size a
  h_S1x40 : 0 < S1x40.numel
  shapeCasts_S1x40_S1x40 : S1x40.ShapeCasts S1x40
  broadcasts_S1x40_S5000x40 : S1x40.Broadcasts S5000x40
  reduces_S5000x40_S5000 : S5000x40.Reduces [1] S5000
  shapeCasts_S5000_S5000x1 : S5000.ShapeCasts S5000x1
  broadcasts_S5000x1_S5000x40 : S5000x1.Broadcasts S5000x40
  scatter_S100000_S3300000x1_S3300000_n_0_0_1_wf : ScatterDims.WF S100000 S3300000x1 S3300000 [] [0] [0] 1
  gather_S100000_S3300000x1_S3300000_n_0_n_n_0_1_1_wf : GatherDims.WF S100000 S3300000x1 S3300000 [] [0] [] [0] [] 1 ![1]
  dot_S5000x256_S256x64_S5000x64_1_0_0_1_n_n_wf : DotDims.WF S5000x256 S256x64 S5000x64 [1] [0] [0] [1] [] []
  gather_S100000x64_S3300000x1_S3300000x64_1_0_n_n_0_1_164_wf : GatherDims.WF S100000x64 S3300000x1 S3300000x64 [1] [0] [] [0] [] 1 ![1, 64]
  scatter_S100000x64_S3300000x1_S3300000x64_1_0_0_1_wf : ScatterDims.WF S100000x64 S3300000x1 S3300000x64 [1] [0] [0] 1
  dot_S5000x64_S64x40_S5000x40_1_0_0_1_n_n_wf : DotDims.WF S5000x64 S64x40 S5000x40 [1] [0] [0] [1] [] []
  gather_S100000x40_S3300000x1_S3300000x40_1_0_n_n_0_1_140_wf : GatherDims.WF S100000x40 S3300000x1 S3300000x40 [1] [0] [] [0] [] 1 ![1, 40]
  scatter_S100000x40_S3300000x1_S3300000x40_1_0_0_1_wf : ScatterDims.WF S100000x40 S3300000x1 S3300000x40 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x256.size a ≤ S100000x256.size a
  hwx0_0 : ∀ i : grid0.Coords, EltTy.bits .f32 = 32 ∨ (Rect.block (s := S100000x256) S5000x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x64.size a ≤ S256x64.size a
  hwx0_1 : ∀ i : grid0.Coords, EltTy.bits .f32 = 32 ∨ (Rect.block (s := S256x64) S256x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x64.size a ≤ S100000x64.size a
  hwx0_2 : ∀ i : grid0.Coords, EltTy.bits .f32 = 32 ∨ (Rect.block (s := S100000x64) S5000x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S100000x64.size a
  hwx1_0 : ∀ i : grid1.Coords, EltTy.bits .f32 = 32 ∨ (Rect.block (s := S100000x64) S5000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x64.size a ≤ S1x64.size a
  hwx1_1 : ∀ i : grid1.Coords, EltTy.bits .f32 = 32 ∨ (Rect.block (s := S1x64) S1x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64x40.size a ≤ S64x40.size a
  hwx1_2 : ∀ i : grid1.Coords, EltTy.bits .f32 = 32 ∨ (Rect.block (s := S64x40) S64x40.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5000x40.size a ≤ S100000x40.size a
  hwx1_3 : ∀ i : grid1.Coords, EltTy.bits .f32 = 32 ∨ (Rect.block (s := S100000x40) S5000x40.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x40.size a ≤ S100000x40.size a
  hwx2_0 : ∀ i : grid2.Coords, EltTy.bits .f32 = 32 ∨ (Rect.block (s := S100000x40) S5000x40.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x40.size a ≤ S1x40.size a
  hwx2_1 : ∀ i : grid2.Coords, EltTy.bits .f32 = 32 ∨ (Rect.block (s := S1x40) S1x40.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x40.size a ≤ S100000x40.size a
  hwx2_2 : ∀ i : grid2.Coords, EltTy.bits .f32 = 32 ∨ (Rect.block (s := S100000x40) S5000x40.size (cc2_transform_2 i) (hinb2_2 i)).WholeWords (EltTy.packing .f32)

variable [Facts₀]

def scatter_S100000_S3300000x1_S3300000_n_0_0_1 : ScatterDims S100000 S3300000x1 S3300000 where
  updateWindowDims := []
  insertedWindowDims := [0]
  scatterDimsToOperandDims := [0]
  indexVectorDim := 1
  wf := scatter_S100000_S3300000x1_S3300000_n_0_0_1_wf
def gather_S100000_S3300000x1_S3300000_n_0_n_n_0_1_1 : GatherDims S100000 S3300000x1 S3300000 where
  offsetDims := []
  collapsedSliceDims := [0]
  operandBatchingDims := []
  startIndicesBatchingDims := []
  startIndexMap := [0]
  indexVectorDim := 1
  sliceSizes := ![1]
  wf := gather_S100000_S3300000x1_S3300000_n_0_n_n_0_1_1_wf
def dot_S5000x256_S256x64_S5000x64_1_0_0_1_n_n : DotDims S5000x256 S256x64 S5000x64 where
  lhsContracting := [1]
  rhsContracting := [0]
  lhsNonContracting := [0]
  rhsNonContracting := [1]
  lhsBatch := []
  rhsBatch := []
  wf := dot_S5000x256_S256x64_S5000x64_1_0_0_1_n_n_wf
def gather_S100000x64_S3300000x1_S3300000x64_1_0_n_n_0_1_164 : GatherDims S100000x64 S3300000x1 S3300000x64 where
  offsetDims := [1]
  collapsedSliceDims := [0]
  operandBatchingDims := []
  startIndicesBatchingDims := []
  startIndexMap := [0]
  indexVectorDim := 1
  sliceSizes := ![1, 64]
  wf := gather_S100000x64_S3300000x1_S3300000x64_1_0_n_n_0_1_164_wf
def scatter_S100000x64_S3300000x1_S3300000x64_1_0_0_1 : ScatterDims S100000x64 S3300000x1 S3300000x64 where
  updateWindowDims := [1]
  insertedWindowDims := [0]
  scatterDimsToOperandDims := [0]
  indexVectorDim := 1
  wf := scatter_S100000x64_S3300000x1_S3300000x64_1_0_0_1_wf
def dot_S5000x64_S64x40_S5000x40_1_0_0_1_n_n : DotDims S5000x64 S64x40 S5000x40 where
  lhsContracting := [1]
  rhsContracting := [0]
  lhsNonContracting := [0]
  rhsNonContracting := [1]
  lhsBatch := []
  rhsBatch := []
  wf := dot_S5000x64_S64x40_S5000x40_1_0_0_1_n_n_wf
def gather_S100000x40_S3300000x1_S3300000x40_1_0_n_n_0_1_140 : GatherDims S100000x40 S3300000x1 S3300000x40 where
  offsetDims := [1]
  collapsedSliceDims := [0]
  operandBatchingDims := []
  startIndicesBatchingDims := []
  startIndexMap := [0]
  indexVectorDim := 1
  sliceSizes := ![1, 40]
  wf := gather_S100000x40_S3300000x1_S3300000x40_1_0_n_n_0_1_140_wf
def scatter_S100000x40_S3300000x1_S3300000x40_1_0_0_1 : ScatterDims S100000x40 S3300000x1 S3300000x40 where
  updateWindowDims := [1]
  insertedWindowDims := [0]
  scatterDimsToOperandDims := [0]
  indexVectorDim := 1
  wf := scatter_S100000x40_S3300000x1_S3300000x40_1_0_0_1_wf

abbrev win0_0 : Pipeline.Window sig grid0 :=
  Pipeline.Window.ofSpec (Memref.whole main_arg0) S5000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S256x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v30) S5000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v43) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v44) S1x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg4) S64x40.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v45) S5000x40.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v58) S5000x40.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v59) S1x40.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v60) S5000x40.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

class Facts : Prop extends Facts₀ where

variable [Facts]
-- ==== ReferenceIdeal.lean ====
abbrev S100000x256 : Shape := ⟨2, ![100000, 256]⟩
abbrev S2x3200000 : Shape := ⟨2, ![2, 3200000]⟩
abbrev S256x64 : Shape := ⟨2, ![256, 64]⟩
abbrev S64 : Shape := ⟨1, ![64]⟩
abbrev S64x40 : Shape := ⟨2, ![64, 40]⟩
abbrev S40 : Shape := ⟨1, ![40]⟩
abbrev S100000x64 : Shape := ⟨2, ![100000, 64]⟩
abbrev S100000 : Shape := ⟨1, ![100000]⟩
abbrev S1x3200000 : Shape := ⟨2, ![1, 3200000]⟩
abbrev S3200000 : Shape := ⟨1, ![3200000]⟩
abbrev S3300000 : Shape := ⟨1, ![3300000]⟩
abbrev S_ : Shape := ⟨0, ![]⟩
abbrev S3300000x1 : Shape := ⟨2, ![3300000, 1]⟩
abbrev S3300000x64 : Shape := ⟨2, ![3300000, 64]⟩
abbrev S1x64 : Shape := ⟨2, ![1, 64]⟩
abbrev S100000x40 : Shape := ⟨2, ![100000, 40]⟩
abbrev S3300000x40 : Shape := ⟨2, ![3300000, 40]⟩
abbrev S1x40 : Shape := ⟨2, ![1, 40]⟩
abbrev S100000x1 : Shape := ⟨2, ![100000, 1]⟩

abbrev nBuf : Space → Nat
  | .hbm => 144
  | .vmem => 0
  | .smem => 0
  | _ => 0

abbrev hbmTy0_0 (i : Nat) : BufTy := match i % 128 with
  | 0 => ⟨S100000x256, .f32⟩
  | 1 => ⟨S2x3200000, .i32⟩
  | 2 => ⟨S256x64, .f32⟩
  | 3 => ⟨S64, .f32⟩
  | 4 => ⟨S64x40, .f32⟩
  | 5 => ⟨S40, .f32⟩
  | 6 => ⟨S100000x64, .f32⟩
  | 7 => ⟨S100000, .i32⟩
  | 8 => ⟨S1x3200000, .i32⟩
  | 9 => ⟨S3200000, .i32⟩
  | 10 => ⟨S3300000, .i32⟩
  | 11 => ⟨S1x3200000, .i32⟩
  | 12 => ⟨S3200000, .i32⟩
  | 13 => ⟨S3300000, .i32⟩
  | 14 => ⟨S_, .f32⟩
  | 15 => ⟨S3300000, .f32⟩
  | 16 => ⟨S_, .f32⟩
  | 17 => ⟨S100000, .f32⟩
  | 18 => ⟨S3300000x1, .i32⟩
  | 19 => ⟨S100000, .f32⟩
  | 20 => ⟨S_, .f32⟩
  | 21 => ⟨S100000, .f32⟩
  | 22 => ⟨S100000, .i1⟩
  | 23 => ⟨S_, .f32⟩
  | 24 => ⟨S_, .f32⟩
  | 25 => ⟨S100000, .f32⟩
  | 26 => ⟨S100000, .f32⟩
  | 27 => ⟨S100000, .f32⟩
  | 28 => ⟨S_, .i32⟩
  | 29 => ⟨S3300000, .i32⟩
  | 30 => ⟨S3300000, .i1⟩
  | 31 => ⟨S_, .i32⟩
  | 32 => ⟨S3300000, .i32⟩
  | 33 => ⟨S3300000, .i32⟩
  | 34 => ⟨S3300000, .i32⟩
  | 35 => ⟨S3300000x1, .i32⟩
  | 36 => ⟨S3300000, .f32⟩
  | 37 => ⟨S_, .i32⟩
  | 38 => ⟨S3300000, .i32⟩
  | 39 => ⟨S3300000, .i1⟩
  | 40 => ⟨S_, .i32⟩
  | 41 => ⟨S3300000, .i32⟩
  | 42 => ⟨S3300000, .i32⟩
  | 43 => ⟨S3300000, .i32⟩
  | 44 => ⟨S3300000x1, .i32⟩
  | 45 => ⟨S3300000, .f32⟩
  | 46 => ⟨S3300000, .f32⟩
  | 47 => ⟨S_, .i32⟩
  | 48 => ⟨S3300000, .i32⟩
  | 49 => ⟨S3300000, .i1⟩
  | 50 => ⟨S_, .i32⟩
  | 51 => ⟨S3300000, .i32⟩
  | 52 => ⟨S3300000, .i32⟩
  | 53 => ⟨S3300000, .i32⟩
  | 54 => ⟨S3300000x1, .i32⟩
  | 55 => ⟨S3300000x64, .f32⟩
  | 56 => ⟨S3300000x1, .f32⟩
  | 57 => ⟨S3300000x64, .f32⟩
  | 58 => ⟨S3300000x64, .f32⟩
  | 59 => ⟨S_, .f32⟩
  | 60 => ⟨S100000x64, .f32⟩
  | 61 => ⟨S3300000x1, .i32⟩
  | 62 => ⟨S100000x64, .f32⟩
  | 63 => ⟨S1x64, .f32⟩
  | 64 => ⟨S100000x64, .f32⟩
  | 65 => ⟨S100000x64, .f32⟩
  | 66 => ⟨S_, .f32⟩
  | 67 => ⟨S100000x64, .f32⟩
  | 68 => ⟨S100000x64, .f32⟩
  | 69 => ⟨S100000x40, .f32⟩
  | 70 => ⟨S100000, .i32⟩
  | 71 => ⟨S1x3200000, .i32⟩
  | 72 => ⟨S3200000, .i32⟩
  | 73 => ⟨S3300000, .i32⟩
  | 74 => ⟨S1x3200000, .i32⟩
  | 75 => ⟨S3200000, .i32⟩
  | 76 => ⟨S3300000, .i32⟩
  | 77 => ⟨S_, .f32⟩
  | 78 => ⟨S3300000, .f32⟩
  | 79 => ⟨S_, .f32⟩
  | 80 => ⟨S100000, .f32⟩
  | 81 => ⟨S3300000x1, .i32⟩
  | 82 => ⟨S100000, .f32⟩
  | 83 => ⟨S_, .f32⟩
  | 84 => ⟨S100000, .f32⟩
  | 85 => ⟨S100000, .i1⟩
  | 86 => ⟨S_, .f32⟩
  | 87 => ⟨S_, .f32⟩
  | 88 => ⟨S100000, .f32⟩
  | 89 => ⟨S100000, .f32⟩
  | 90 => ⟨S100000, .f32⟩
  | 91 => ⟨S_, .i32⟩
  | 92 => ⟨S3300000, .i32⟩
  | 93 => ⟨S3300000, .i1⟩
  | 94 => ⟨S_, .i32⟩
  | 95 => ⟨S3300000, .i32⟩
  | 96 => ⟨S3300000, .i32⟩
  | 97 => ⟨S3300000, .i32⟩
  | 98 => ⟨S3300000x1, .i32⟩
  | 99 => ⟨S3300000, .f32⟩
  | 100 => ⟨S_, .i32⟩
  | 101 => ⟨S3300000, .i32⟩
  | 102 => ⟨S3300000, .i1⟩
  | 103 => ⟨S_, .i32⟩
  | 104 => ⟨S3300000, .i32⟩
  | 105 => ⟨S3300000, .i32⟩
  | 106 => ⟨S3300000, .i32⟩
  | 107 => ⟨S3300000x1, .i32⟩
  | 108 => ⟨S3300000, .f32⟩
  | 109 => ⟨S3300000, .f32⟩
  | 110 => ⟨S_, .i32⟩
  | 111 => ⟨S3300000, .i32⟩
  | 112 => ⟨S3300000, .i1⟩
  | 113 => ⟨S_, .i32⟩
  | 114 => ⟨S3300000, .i32⟩
  | 115 => ⟨S3300000, .i32⟩
  | 116 => ⟨S3300000, .i32⟩
  | 117 => ⟨S3300000x1, .i32⟩
  | 118 => ⟨S3300000x40, .f32⟩
  | 119 => ⟨S3300000x1, .f32⟩
  | 120 => ⟨S3300000x40, .f32⟩
  | 121 => ⟨S3300000x40, .f32⟩
  | 122 => ⟨S_, .f32⟩
  | 123 => ⟨S100000x40, .f32⟩
  | 124 => ⟨S3300000x1, .i32⟩
  | 125 => ⟨S100000x40, .f32⟩
  | 126 => ⟨S1x40, .f32⟩
  | 127 => ⟨S100000x40, .f32⟩
  | _ => ⟨S100000x256, .f32⟩

abbrev hbmTy0_1 (i : Nat) : BufTy := match i % 128 with
  | 0 => ⟨S100000x40, .f32⟩
  | 1 => ⟨S_, .f32⟩
  | 2 => ⟨S100000, .f32⟩
  | 3 => ⟨S_, .f32⟩
  | 4 => ⟨S100000, .f32⟩
  | 5 => ⟨S100000, .f32⟩
  | 6 => ⟨S100000x1, .f32⟩
  | 7 => ⟨S100000x40, .f32⟩
  | 8 => ⟨S100000x40, .f32⟩
  | 9 => ⟨S100000x40, .f32⟩
  | 10 => ⟨S_, .f32⟩
  | 11 => ⟨S100000, .f32⟩
  | 12 => ⟨S100000x1, .f32⟩
  | 13 => ⟨S100000x1, .f32⟩
  | 14 => ⟨S100000x40, .f32⟩
  | 15 => ⟨S100000x40, .f32⟩
  | _ => ⟨S100000x256, .f32⟩

abbrev hbmTy (i : Nat) : BufTy := match i / 128 with
  | 0 => hbmTy0_0 i
  | 1 => hbmTy0_1 i
  | _ => ⟨S100000x256, .f32⟩

abbrev bufTy : (tb : Table) → Fin (tcTables nBuf tb) → BufTy
  | .hbm, ⟨i, _⟩ => hbmTy i
  | _, _ => ⟨S100000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst : Ref sig .tc := ⟨.hbm, 14, rfl⟩
abbrev main_v8 : Ref sig .tc := ⟨.hbm, 15, rfl⟩
abbrev main_cst_0 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_1 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_call0_v0 : Ref sig .tc := ⟨.hbm, 24, rfl⟩
abbrev main_call0_v1 : Ref sig .tc := ⟨.hbm, 25, rfl⟩
abbrev main_v14 : Ref sig .tc := ⟨.hbm, 26, rfl⟩
abbrev main_v15 : Ref sig .tc := ⟨.hbm, 27, rfl⟩
abbrev main_c : Ref sig .tc := ⟨.hbm, 28, rfl⟩
abbrev main_v16 : Ref sig .tc := ⟨.hbm, 29, rfl⟩
abbrev main_v17 : Ref sig .tc := ⟨.hbm, 30, rfl⟩
abbrev main_c_3 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_c_4 : Ref sig .tc := ⟨.hbm, 37, rfl⟩
abbrev main_v23 : Ref sig .tc := ⟨.hbm, 38, rfl⟩
abbrev main_v24 : Ref sig .tc := ⟨.hbm, 39, rfl⟩
abbrev main_c_5 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_c_6 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_8 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_call1_cst : Ref sig .tc := ⟨.hbm, 66, rfl⟩
abbrev main_call1_v0 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_cst_9 : Ref sig .tc := ⟨.hbm, 77, rfl⟩
abbrev main_v56 : Ref sig .tc := ⟨.hbm, 78, rfl⟩
abbrev main_cst_10 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_cst_11 : Ref sig .tc := ⟨.hbm, 83, rfl⟩
abbrev main_v60 : Ref sig .tc := ⟨.hbm, 84, rfl⟩
abbrev main_v61 : Ref sig .tc := ⟨.hbm, 85, rfl⟩
abbrev main_cst_12 : Ref sig .tc := ⟨.hbm, 86, rfl⟩
abbrev main_call2_v0 : Ref sig .tc := ⟨.hbm, 87, rfl⟩
abbrev main_call2_v1 : Ref sig .tc := ⟨.hbm, 88, rfl⟩
abbrev main_v62 : Ref sig .tc := ⟨.hbm, 89, rfl⟩
abbrev main_v63 : Ref sig .tc := ⟨.hbm, 90, rfl⟩
abbrev main_c_13 : Ref sig .tc := ⟨.hbm, 91, rfl⟩
abbrev main_v64 : Ref sig .tc := ⟨.hbm, 92, rfl⟩
abbrev main_v65 : Ref sig .tc := ⟨.hbm, 93, rfl⟩
abbrev main_c_14 : Ref sig .tc := ⟨.hbm, 94, rfl⟩
abbrev main_v66 : Ref sig .tc := ⟨.hbm, 95, rfl⟩
abbrev main_v67 : Ref sig .tc := ⟨.hbm, 96, rfl⟩
abbrev main_v68 : Ref sig .tc := ⟨.hbm, 97, rfl⟩
abbrev main_v69 : Ref sig .tc := ⟨.hbm, 98, rfl⟩
abbrev main_v70 : Ref sig .tc := ⟨.hbm, 99, rfl⟩
abbrev main_c_15 : Ref sig .tc := ⟨.hbm, 100, rfl⟩
abbrev main_v71 : Ref sig .tc := ⟨.hbm, 101, rfl⟩
abbrev main_v72 : Ref sig .tc := ⟨.hbm, 102, rfl⟩
abbrev main_c_16 : Ref sig .tc := ⟨.hbm, 103, rfl⟩
abbrev main_v73 : Ref sig .tc := ⟨.hbm, 104, rfl⟩
abbrev main_v74 : Ref sig .tc := ⟨.hbm, 105, rfl⟩
abbrev main_v75 : Ref sig .tc := ⟨.hbm, 106, rfl⟩
abbrev main_v76 : Ref sig .tc := ⟨.hbm, 107, rfl⟩
abbrev main_v77 : Ref sig .tc := ⟨.hbm, 108, rfl⟩
abbrev main_v78 : Ref sig .tc := ⟨.hbm, 109, rfl⟩
abbrev main_c_17 : Ref sig .tc := ⟨.hbm, 110, rfl⟩
abbrev main_v79 : Ref sig .tc := ⟨.hbm, 111, rfl⟩
abbrev main_v80 : Ref sig .tc := ⟨.hbm, 112, rfl⟩
abbrev main_c_18 : Ref sig .tc := ⟨.hbm, 113, rfl⟩
abbrev main_v81 : Ref sig .tc := ⟨.hbm, 114, rfl⟩
abbrev main_v82 : Ref sig .tc := ⟨.hbm, 115, rfl⟩
abbrev main_v83 : Ref sig .tc := ⟨.hbm, 116, rfl⟩
abbrev main_v84 : Ref sig .tc := ⟨.hbm, 117, rfl⟩
abbrev main_v85 : Ref sig .tc := ⟨.hbm, 118, rfl⟩
abbrev main_v86 : Ref sig .tc := ⟨.hbm, 119, rfl⟩
abbrev main_v87 : Ref sig .tc := ⟨.hbm, 120, rfl⟩
abbrev main_v88 : Ref sig .tc := ⟨.hbm, 121, rfl⟩
abbrev main_cst_19 : Ref sig .tc := ⟨.hbm, 122, rfl⟩
abbrev main_v89 : Ref sig .tc := ⟨.hbm, 123, rfl⟩
abbrev main_v90 : Ref sig .tc := ⟨.hbm, 124, rfl⟩
abbrev main_v91 : Ref sig .tc := ⟨.hbm, 125, rfl⟩
abbrev main_v92 : Ref sig .tc := ⟨.hbm, 126, rfl⟩
abbrev main_v93 : Ref sig .tc := ⟨.hbm, 127, rfl⟩
abbrev main_v94 : Ref sig .tc := ⟨.hbm, 128, rfl⟩
abbrev main_call3_cst : Ref sig .tc := ⟨.hbm, 129, rfl⟩
abbrev main_call3_v0 : Ref sig .tc := ⟨.hbm, 130, rfl⟩
abbrev main_call3_cst_0 : Ref sig .tc := ⟨.hbm, 131, rfl⟩
abbrev main_call3_v1 : Ref sig .tc := ⟨.hbm, 132, rfl⟩
abbrev main_call3_v2 : Ref sig .tc := ⟨.hbm, 133, rfl⟩
abbrev main_call3_v3 : Ref sig .tc := ⟨.hbm, 134, rfl⟩
abbrev main_call3_v4 : Ref sig .tc := ⟨.hbm, 135, rfl⟩
abbrev main_call3_v5 : Ref sig .tc := ⟨.hbm, 136, rfl⟩
abbrev main_call3_v6 : Ref sig .tc := ⟨.hbm, 137, rfl⟩
abbrev main_call3_cst_1 : Ref sig .tc := ⟨.hbm, 138, rfl⟩
abbrev main_call3_v7 : Ref sig .tc := ⟨.hbm, 139, rfl⟩
abbrev main_call3_v8 : Ref sig .tc := ⟨.hbm, 140, rfl⟩
abbrev main_call3_v9 : Ref sig .tc := ⟨.hbm, 141, rfl⟩
abbrev main_call3_v10 : Ref sig .tc := ⟨.hbm, 142, rfl⟩
abbrev main_v95 : Ref sig .tc := ⟨.hbm, 143, rfl⟩

abbrev nD : Nat := 1
abbrev τ : Topo := Topo.v7x

variable {F : FTy → Type} [FloatOps F]

class Facts₀ : Prop where
  slices_S2x3200000_S1x3200000_0_0 : S2x3200000.Slices ![0, 0] S1x3200000
  shapeCasts_S1x3200000_S3200000 : S1x3200000.ShapeCasts S3200000
  concatenates_S3200000_S100000_S3300000_d0 : Shape.Concatenates [S3200000, S100000] S3300000 0
  slices_S2x3200000_S1x3200000_1_0 : S2x3200000.Slices ![1, 0] S1x3200000
  bcast_S_S3300000 : S_.BroadcastsInDim S3300000 (![] : Fin 0 → Fin S3300000.rank)
  bcast_S_S100000 : S_.BroadcastsInDim S100000 (![] : Fin 0 → Fin S100000.rank)
  bcast_S3300000_S3300000x1_0 : S3300000.BroadcastsInDim S3300000x1 (![0] : Fin 1 → Fin S3300000x1.rank)
  bcast_S3300000x1_S3300000x64_0_1 : S3300000x1.BroadcastsInDim S3300000x64 (![0, 1] : Fin 2 → Fin S3300000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S3300000x1_S3300000x40_0_1 : S3300000x1.BroadcastsInDim S3300000x40 (![0, 1] : Fin 2 → Fin S3300000x40.rank)
  bcast_S_S100000x40 : S_.BroadcastsInDim S100000x40 (![] : Fin 0 → Fin S100000x40.rank)
  bcast_S40_S1x40_1 : S40.BroadcastsInDim S1x40 (![1] : Fin 1 → Fin S1x40.rank)
  bcast_S1x40_S100000x40_0_1 : S1x40.BroadcastsInDim S100000x40 (![0, 1] : Fin 2 → Fin S100000x40.rank)
  reducesTo_S100000x40_S100000_d1 : S100000x40.ReducesTo [1] S100000
  h_S_ : 0 < S_.numel
  bcast_S100000_S100000x1_0 : S100000.BroadcastsInDim S100000x1 (![0] : Fin 1 → Fin S100000x1.rank)
  bcast_S100000x1_S100000x40_0_1 : S100000x1.BroadcastsInDim S100000x40 (![0, 1] : Fin 2 → Fin S100000x40.rank)
  dot_S100000x256_S256x64_S100000x64_1_0_0_1_n_n_wf : DotDims.WF S100000x256 S256x64 S100000x64 [1] [0] [0] [1] [] []
  scatter_S100000_S3300000x1_S3300000_n_0_0_1_wf : ScatterDims.WF S100000 S3300000x1 S3300000 [] [0] [0] 1
  gather_S100000_S3300000x1_S3300000_n_0_n_n_0_1_1_wf : GatherDims.WF S100000 S3300000x1 S3300000 [] [0] [] [0] [] 1 ![1]
  gather_S100000x64_S3300000x1_S3300000x64_1_0_n_n_0_1_164_wf : GatherDims.WF S100000x64 S3300000x1 S3300000x64 [1] [0] [] [0] [] 1 ![1, 64]
  scatter_S100000x64_S3300000x1_S3300000x64_1_0_0_1_wf : ScatterDims.WF S100000x64 S3300000x1 S3300000x64 [1] [0] [0] 1
  dot_S100000x64_S64x40_S100000x40_1_0_0_1_n_n_wf : DotDims.WF S100000x64 S64x40 S100000x40 [1] [0] [0] [1] [] []
  gather_S100000x40_S3300000x1_S3300000x40_1_0_n_n_0_1_140_wf : GatherDims.WF S100000x40 S3300000x1 S3300000x40 [1] [0] [] [0] [] 1 ![1, 40]
  scatter_S100000x40_S3300000x1_S3300000x40_1_0_0_1_wf : ScatterDims.WF S100000x40 S3300000x1 S3300000x40 [1] [0] [0] 1

variable [Facts₀]

def dot_S100000x256_S256x64_S100000x64_1_0_0_1_n_n : DotDims S100000x256 S256x64 S100000x64 where
  lhsContracting := [1]
  rhsContracting := [0]
  lhsNonContracting := [0]
  rhsNonContracting := [1]
  lhsBatch := []
  rhsBatch := []
  wf := dot_S100000x256_S256x64_S100000x64_1_0_0_1_n_n_wf
def scatter_S100000_S3300000x1_S3300000_n_0_0_1 : ScatterDims S100000 S3300000x1 S3300000 where
  updateWindowDims := []
  insertedWindowDims := [0]
  scatterDimsToOperandDims := [0]
  indexVectorDim := 1
  wf := scatter_S100000_S3300000x1_S3300000_n_0_0_1_wf
def gather_S100000_S3300000x1_S3300000_n_0_n_n_0_1_1 : GatherDims S100000 S3300000x1 S3300000 where
  offsetDims := []
  collapsedSliceDims := [0]
  operandBatchingDims := []
  startIndicesBatchingDims := []
  startIndexMap := [0]
  indexVectorDim := 1
  sliceSizes := ![1]
  wf := gather_S100000_S3300000x1_S3300000_n_0_n_n_0_1_1_wf
def gather_S100000x64_S3300000x1_S3300000x64_1_0_n_n_0_1_164 : GatherDims S100000x64 S3300000x1 S3300000x64 where
  offsetDims := [1]
  collapsedSliceDims := [0]
  operandBatchingDims := []
  startIndicesBatchingDims := []
  startIndexMap := [0]
  indexVectorDim := 1
  sliceSizes := ![1, 64]
  wf := gather_S100000x64_S3300000x1_S3300000x64_1_0_n_n_0_1_164_wf
def scatter_S100000x64_S3300000x1_S3300000x64_1_0_0_1 : ScatterDims S100000x64 S3300000x1 S3300000x64 where
  updateWindowDims := [1]
  insertedWindowDims := [0]
  scatterDimsToOperandDims := [0]
  indexVectorDim := 1
  wf := scatter_S100000x64_S3300000x1_S3300000x64_1_0_0_1_wf
def dot_S100000x64_S64x40_S100000x40_1_0_0_1_n_n : DotDims S100000x64 S64x40 S100000x40 where
  lhsContracting := [1]
  rhsContracting := [0]
  lhsNonContracting := [0]
  rhsNonContracting := [1]
  lhsBatch := []
  rhsBatch := []
  wf := dot_S100000x64_S64x40_S100000x40_1_0_0_1_n_n_wf
def gather_S100000x40_S3300000x1_S3300000x40_1_0_n_n_0_1_140 : GatherDims S100000x40 S3300000x1 S3300000x40 where
  offsetDims := [1]
  collapsedSliceDims := [0]
  operandBatchingDims := []
  startIndicesBatchingDims := []
  startIndexMap := [0]
  indexVectorDim := 1
  sliceSizes := ![1, 40]
  wf := gather_S100000x40_S3300000x1_S3300000x40_1_0_n_n_0_1_140_wf
def scatter_S100000x40_S3300000x1_S3300000x40_1_0_0_1 : ScatterDims S100000x40 S3300000x1 S3300000x40 where
  updateWindowDims := [1]
  insertedWindowDims := [0]
  scatterDimsToOperandDims := [0]
  indexVectorDim := 1
  wf := scatter_S100000x40_S3300000x1_S3300000x40_1_0_0_1_wf

class Facts : Prop extends Facts₀ where

variable [Facts]
-- ==== Proof.KRun.lean ====
/-
  The idealized kernel's run with its result named.

  The program is three launches among stretches of host operations. The generated frame certificate folds the
  buffer contents through those eight segments (`W0` … `W8`) and proves that every execution ends with every
  unscoped buffer at the last contents `W8`. Its own conclusion keeps only the six argument arrays; here the same
  run is read once more, keeping also the result array: it ends at `W8` read at the result's buffer. What that
  value is, as a function of the arguments, is the business of the modules that follow.
-/
import proofs.«118155_j584115552925_2_alg».proof.Proof.Gen.KernelIdeal.Frame

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates, nothing faulting, with the result array at the last
    boundary's contents and the six arguments as launched. -/
theorem run_result : θ_run defs (onTc (τ := τ) (main (F := F))) ⟨m, fun _ => 0, ρ⟩ (fun r => ∀ c : Dev nD,
      r.2.mem ((c.tc : Thread nD τ).loc main_v60) = W8 m ρ c (Proc.devRef .tc main_v60)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h c =>
      ⟨h c _ (mem_uc main_v60 (by decide)),
       (h c _ (mem_uc main_arg0 (by decide))).trans (W8_main_arg0 m ρ c),
       (h c _ (mem_uc main_arg1 (by decide))).trans (W8_main_arg1 m ρ c),
       (h c _ (mem_uc main_arg2 (by decide))).trans (W8_main_arg2 m ρ c),
       (h c _ (mem_uc main_arg3 (by decide))).trans (W8_main_arg3 m ρ c),
       (h c _ (mem_uc main_arg4 (by decide))).trans (W8_main_arg4 m ρ c),
       (h c _ (mem_uc main_arg5 (by decide))).trans (W8_main_arg5 m ρ c)⟩)

end Cert.KernelIdeal.Hand

end
-- ==== Proof.Spec.lean ====
/-
  The three launches as functions of whole arrays, entry by entry, at the exact values.

  prod1: the first projection, entry (r, c) the sum over k of x[r, k] · W₁[k, c].
  prod2: the second projection with the first layer's bias and rectifier in front: entry (r, c) the sum over k of
         max(a[r, k] + b[0, k], 0) · W₂[k, c].
  lsm:   the row-wise log-softmax of a + b: with z[j] = a[r, j] + b[0, j] and M the maximum of the row's forty z,
         entry (r, c) is (z[c] − M) − log Σⱼ exp(z[j] − M).
-/
import Idealize.ShloMosaic.PureOps.Ideal
import Idealize.ShloMosaic.PureOps.Ideal.Laws
import Idealize.ShloMosaic.Lib.ValueIdx

set_option maxRecDepth 16384

noncomputable section

open Idealize.ShloMosaic
open Idealize.ShloMosaic.ValueIdx

namespace Cert.Spec

/-- x · W₁, entry by entry. -/
def prod1 (x : (⟨2, ![100000, 256]⟩ : Shape).Idx → EReal) (w : (⟨2, ![256, 64]⟩ : Shape).Idx → EReal) :
    (⟨2, ![100000, 64]⟩ : Shape).Idx → EReal :=
  fun i => ∑ k : Fin 256, x (ix2 (i 0) k) * w (ix2 k (i 1))

/-- max(a + b, 0) · W₂, entry by entry; `b` is the bias as one row. -/
def prod2 (a : (⟨2, ![100000, 64]⟩ : Shape).Idx → EReal) (b : (⟨2, ![1, 64]⟩ : Shape).Idx → EReal)
    (w : (⟨2, ![64, 40]⟩ : Shape).Idx → EReal) : (⟨2, ![100000, 40]⟩ : Shape).Idx → EReal :=
  fun i => ∑ k : Fin 64, max (a (ix2 (i 0) k) + b (ix2 0 k)) (Ideal.ofBits .f32 0x00000000#32) * w (ix2 k (i 1))

/-- Row `r` of a + b, the bias as one row; for an array of any number of rows. -/
def biased {n : ℕ} (a : (⟨2, ![n, 40]⟩ : Shape).Idx → EReal) (b : (⟨2, ![1, 40]⟩ : Shape).Idx → EReal) (r : Fin n) :
    Fin 40 → EReal := fun j => a (ix2 r j) + b (ix2 0 j)

/-- The maximum of a row of forty, from −∞. -/
def rowMax (z : Fin 40 → EReal) : EReal := (Finset.univ : Finset (Fin 40)).fold max (Ideal.ofBits .f32 0xFF800000#32) z

/-- The log-softmax of one row at column `c`. -/
def lsmRow (z : Fin 40 → EReal) (c : Fin 40) : EReal :=
  (z c - rowMax z) - Ideal.log (∑ j : Fin 40, Ideal.exp (z j - rowMax z))

/-- The row-wise log-softmax of a + b. -/
def lsm (a : (⟨2, ![100000, 40]⟩ : Shape).Idx → EReal) (b : (⟨2, ![1, 40]⟩ : Shape).Idx → EReal) :
    (⟨2, ![100000, 40]⟩ : Shape).Idx → EReal :=
  fun i => lsmRow (biased a b (i 0)) (i 1)

end Cert.Spec

end
-- ==== Proof.HostChain.lean ====
/-
  The host operations of the kernel's program, stretch by stretch, named by the reference's own stages.

  Around its three launches the program computes, on the host, exactly what the reference computes: the source and
  destination lists (the edge list's two rows, each followed by 0 … 99999 for the self-loops), the degree by a
  scatter-add of ones, its inverse square root where positive, the edge weight as the product of the two gathered
  inverse roots, and for each layer the gather of the projected rows by source, their scaling by the weight and the
  scatter-add by destination. This module reads the program's buffers at each segment boundary and names what it
  finds by the reference's stage functions of the arguments; no gather or scatter is opened.
-/
import proofs.«118155_j584115552925_2_alg».proof.Proof.Gen.KernelIdeal.Frame
import proofs.«118155_j584115552925_2_alg».proof.Proof.RefRead
import Idealize.ShloMosaic.Lib.StableHlo.Run

set_option maxRecDepth 16384

noncomputable section

open Idealize.ShloMosaic Idealize.ShloMosaic.TcCoe Idealize.SL.Sem
open Idealize.ShloMosaic.Pipeline (Dat)
open Idealize.ShloMosaic.ValueIdx

namespace Cert.KernelIdeal.Hand

open Cert.KernelIdeal Cert.KernelIdeal.Gen Idealize.ShloMosaic.StableHlo
open Cert.ReferenceIdeal.ReadP

variable {F : FTy → Type} [FloatOps F]
variable (m : (ℓ : Loc nD τ sig) → Buf (Elt F) ℓ) (ρ : Dev nD → PrngReg)

/-! ## Before the first launch -/

/-- The source list is the reference's. -/
theorem W3_src (c : Dev nD) :
    W3 m ρ c (Proc.devRef .tc main_v3) = val_main_v4 (F := F) (m ((c : Thread nD τ).loc main_arg1)) := by
  show after hostOps0_2 (after hostOps0_1 (after hostOps0 (W0 m ρ c))) (Proc.devRef .tc main_v3) = _
  after_results_simp
  rfl

/-- The destination list is the reference's. -/
theorem W3_dst (c : Dev nD) :
    W3 m ρ c (Proc.devRef .tc main_v6) = val_main_v7 (F := F) (m ((c : Thread nD τ).loc main_arg1)) := by
  show after hostOps0_2 (after hostOps0_1 (after hostOps0 (W0 m ρ c))) (Proc.devRef .tc main_v6) = _
  after_results_simp
  rfl

/-- The edge weights are the reference's. -/
theorem W3_norm (c : Dev nD) :
    W3 m ρ c (Proc.devRef .tc main_v29) = val_main_v30 (F := F) (m ((c : Thread nD τ).loc main_arg1)) := by
  show after hostOps0_2 (after hostOps0_1 (after hostOps0 (W0 m ρ c))) (Proc.devRef .tc main_v29) = _
  after_results_simp
  rfl

/-- No host operation writes an argument. -/
theorem W3_arg0 (c : Dev nD) : W3 m ρ c (Proc.devRef .tc main_arg0) = m ((c : Thread nD τ).loc main_arg0) := by
  show after hostOps0_2 (after hostOps0_1 (after hostOps0 (W0 m ρ c))) (Proc.devRef .tc main_arg0) = _
  after_results_simp
theorem W3_arg2 (c : Dev nD) : W3 m ρ c (Proc.devRef .tc main_arg2) = m ((c : Thread nD τ).loc main_arg2) := by
  show after hostOps0_2 (after hostOps0_1 (after hostOps0 (W0 m ρ c))) (Proc.devRef .tc main_arg2) = _
  after_results_simp
theorem W3_arg3 (c : Dev nD) : W3 m ρ c (Proc.devRef .tc main_arg3) = m ((c : Thread nD τ).loc main_arg3) := by
  show after hostOps0_2 (after hostOps0_1 (after hostOps0 (W0 m ρ c))) (Proc.devRef .tc main_arg3) = _
  after_results_simp
theorem W3_arg4 (c : Dev nD) : W3 m ρ c (Proc.devRef .tc main_arg4) = m ((c : Thread nD τ).loc main_arg4) := by
  show after hostOps0_2 (after hostOps0_1 (after hostOps0 (W0 m ρ c))) (Proc.devRef .tc main_arg4) = _
  after_results_simp
theorem W3_arg5 (c : Dev nD) : W3 m ρ c (Proc.devRef .tc main_arg5) = m ((c : Thread nD τ).loc main_arg5) := by
  show after hostOps0_2 (after hostOps0_1 (after hostOps0 (W0 m ρ c))) (Proc.devRef .tc main_arg5) = _
  after_results_simp

/-! ## Across the first launch: it writes its output only -/

theorem W4_src (c : Dev nD) : W4 m ρ c (Proc.devRef .tc main_v3) = val_main_v4 (F := F) (m ((c : Thread nD τ).loc main_arg1)) :=
  (W4_of_ne m ρ c main_v3 (by decide)).trans (W3_src m ρ c)
theorem W4_dst (c : Dev nD) : W4 m ρ c (Proc.devRef .tc main_v6) = val_main_v7 (F := F) (m ((c : Thread nD τ).loc main_arg1)) :=
  (W4_of_ne m ρ c main_v6 (by decide)).trans (W3_dst m ρ c)
theorem W4_norm (c : Dev nD) : W4 m ρ c (Proc.devRef .tc main_v29) = val_main_v30 (F := F) (m ((c : Thread nD τ).loc main_arg1)) :=
  (W4_of_ne m ρ c main_v29 (by decide)).trans (W3_norm m ρ c)
theorem W4_arg3 (c : Dev nD) : W4 m ρ c (Proc.devRef .tc main_arg3) = m ((c : Thread nD τ).loc main_arg3) :=
  (W4_of_ne m ρ c main_arg3 (by decide)).trans (W3_arg3 m ρ c)
theorem W4_arg4 (c : Dev nD) : W4 m ρ c (Proc.devRef .tc main_arg4) = m ((c : Thread nD τ).loc main_arg4) :=
  (W4_of_ne m ρ c main_arg4 (by decide)).trans (W3_arg4 m ρ c)
theorem W4_arg5 (c : Dev nD) : W4 m ρ c (Proc.devRef .tc main_arg5) = m ((c : Thread nD τ).loc main_arg5) :=
  (W4_of_ne m ρ c main_arg5 (by decide)).trans (W3_arg5 m ρ c)

/-! ## Between the first and the second launch -/

/-- The first layer's aggregation, of whatever the first launch left: the reference's gather by source, scaling by the
    edge weight and scatter-add by destination. -/
theorem W5_agg (c : Dev nD) (xw : (⟨Cert.ReferenceIdeal.S100000x64, .f32⟩ : BufTy).Contents (Elt F))
    (h : W4 m ρ c (Proc.devRef .tc main_v30) = xw) :
    W5 m ρ c (Proc.devRef .tc main_v43)
      = Host.scatterAdd Cert.ReferenceIdeal.scatter_S100000x64_S3300000x1_S3300000x64_1_0_0_1 (val_main_v41 (F := F)) (val_main_v42 (F := F) (m ((c : Thread nD τ).loc main_arg1)))
          (mulf (Host.gather Cert.ReferenceIdeal.gather_S100000x64_S3300000x1_S3300000x64_1_0_n_n_0_1_164 xw (val_main_v36 (F := F) (m ((c : Thread nD τ).loc main_arg1)))) (val_main_v39 (F := F) (m ((c : Thread nD τ).loc main_arg1)))) := by
  show after hostOps1 (W4 m ρ c) (Proc.devRef .tc main_v43) = _
  after_results_simp
  rw [W4_src, W4_dst, W4_norm, h]
  rfl

/-- The first layer's bias as one row. -/
theorem W5_bias (c : Dev nD) :
    W5 m ρ c (Proc.devRef .tc main_v44) = shapeCast S1x64 (m ((c : Thread nD τ).loc main_arg3)) shapeCasts_S64_S1x64 := by
  show after hostOps1 (W4 m ρ c) (Proc.devRef .tc main_v44) = _
  after_results_simp
  rw [W4_arg3]
  rfl

theorem W5_src (c : Dev nD) : W5 m ρ c (Proc.devRef .tc main_v3) = val_main_v4 (F := F) (m ((c : Thread nD τ).loc main_arg1)) := by
  show after hostOps1 (W4 m ρ c) (Proc.devRef .tc main_v3) = _
  after_results_simp
  exact W4_src m ρ c
theorem W5_dst (c : Dev nD) : W5 m ρ c (Proc.devRef .tc main_v6) = val_main_v7 (F := F) (m ((c : Thread nD τ).loc main_arg1)) := by
  show after hostOps1 (W4 m ρ c) (Proc.devRef .tc main_v6) = _
  after_results_simp
  exact W4_dst m ρ c
theorem W5_norm (c : Dev nD) : W5 m ρ c (Proc.devRef .tc main_v29) = val_main_v30 (F := F) (m ((c : Thread nD τ).loc main_arg1)) := by
  show after hostOps1 (W4 m ρ c) (Proc.devRef .tc main_v29) = _
  after_results_simp
  exact W4_norm m ρ c
theorem W5_arg4 (c : Dev nD) : W5 m ρ c (Proc.devRef .tc main_arg4) = m ((c : Thread nD τ).loc main_arg4) := by
  show after hostOps1 (W4 m ρ c) (Proc.devRef .tc main_arg4) = _
  after_results_simp
  exact W4_arg4 m ρ c
theorem W5_arg5 (c : Dev nD) : W5 m ρ c (Proc.devRef .tc main_arg5) = m ((c : Thread nD τ).loc main_arg5) := by
  show after hostOps1 (W4 m ρ c) (Proc.devRef .tc main_arg5) = _
  after_results_simp
  exact W4_arg5 m ρ c

/-! ## Across the second launch -/

theorem W6_src (c : Dev nD) : W6 m ρ c (Proc.devRef .tc main_v3) = val_main_v4 (F := F) (m ((c : Thread nD τ).loc main_arg1)) :=
  (W6_of_ne m ρ c main_v3 (by decide)).trans (W5_src m ρ c)
theorem W6_dst (c : Dev nD) : W6 m ρ c (Proc.devRef .tc main_v6) = val_main_v7 (F := F) (m ((c : Thread nD τ).loc main_arg1)) :=
  (W6_of_ne m ρ c main_v6 (by decide)).trans (W5_dst m ρ c)
theorem W6_norm (c : Dev nD) : W6 m ρ c (Proc.devRef .tc main_v29) = val_main_v30 (F := F) (m ((c : Thread nD τ).loc main_arg1)) :=
  (W6_of_ne m ρ c main_v29 (by decide)).trans (W5_norm m ρ c)
theorem W6_arg5 (c : Dev nD) : W6 m ρ c (Proc.devRef .tc main_arg5) = m ((c : Thread nD τ).loc main_arg5) :=
  (W6_of_ne m ρ c main_arg5 (by decide)).trans (W5_arg5 m ρ c)

/-! ## Between the second and the third launch -/

/-- The second layer's aggregation, of whatever the second launch left, with the same lists and weights. -/
theorem W7_agg (c : Dev nD) (xw : (⟨Cert.ReferenceIdeal.S100000x40, .f32⟩ : BufTy).Contents (Elt F))
    (h : W6 m ρ c (Proc.devRef .tc main_v45) = xw) :
    W7 m ρ c (Proc.devRef .tc main_v58)
      = Host.scatterAdd Cert.ReferenceIdeal.scatter_S100000x40_S3300000x1_S3300000x40_1_0_0_1 (val_main_v89 (F := F)) (val_main_v90 (F := F) (m ((c : Thread nD τ).loc main_arg1)))
          (mulf (Host.gather Cert.ReferenceIdeal.gather_S100000x40_S3300000x1_S3300000x40_1_0_n_n_0_1_140 xw (val_main_v84 (F := F) (m ((c : Thread nD τ).loc main_arg1)))) (val_main_v87 (F := F) (m ((c : Thread nD τ).loc main_arg1)))) := by
  show after hostOps2 (W6 m ρ c) (Proc.devRef .tc main_v58) = _
  after_results_simp
  rw [W6_src, W6_dst, W6_norm, h]
  rfl

/-- The second layer's bias as one row. -/
theorem W7_bias (c : Dev nD) :
    W7 m ρ c (Proc.devRef .tc main_v59) = shapeCast S1x40 (m ((c : Thread nD τ).loc main_arg5)) shapeCasts_S40_S1x40 := by
  show after hostOps2 (W6 m ρ c) (Proc.devRef .tc main_v59) = _
  after_results_simp
  rw [W6_arg5]
  rfl

end Cert.KernelIdeal.Hand

end
-- ==== Proof.Proj1.lean ====
/-
  The first launch: x · W₁, twenty row blocks of 5000 rows.

  Point t of the grid loads rows 5000·t … 5000·t + 4999 of x and the whole of W₁, multiplies them into a zero
  accumulator, and writes the 5000 × 64 product back as rows 5000·t … of the output. At the exact values an entry of
  that product is the sum over the 256 columns of x's row against W₁'s column, which is the same entry of the one
  whole product: the block at t is the whole product read through rows 5000·t …, and the twenty blocks tile the
  100000 rows, so the output array ends holding the whole product (Spec.prod1).
-/
import proofs.«118155_j584115552925_2_alg».proof.Proof.Gen.KernelIdeal.Frame
import proofs.«118155_j584115552925_2_alg».proof.Proof.Spec
import Idealize.ShloMosaic.Lib.Pipeline.Value
import Idealize.ShloMosaic.Lib.ValueIdx
import Idealize.ShloMosaic.PureOps.Ideal.Laws

set_option maxRecDepth 16384

noncomputable section

open Idealize.ShloMosaic Idealize.ShloMosaic.TcCoe Idealize.SL.Sem
open Idealize.ShloMosaic.Pipeline (Dat)
open Idealize.ShloMosaic.ValueIdx

namespace Cert.KernelIdeal.Hand

open Cert.KernelIdeal Cert.KernelIdeal.Gen

/-- The all-zero offset of a whole-block access. -/
theorem hz : (![0, 0] : Fin 2 → Nat) = fun _ => 0 := funext fun a => by fin_cases a <;> rfl

theorem lhsP1_0 (i : S5000x64.Idx) (q : dot_S5000x256_S256x64_S5000x64_1_0_0_1_n_n.contr.Idx) : (dot_S5000x256_S256x64_S5000x64_1_0_0_1_n_n.lhsIdx i q 0).val = (i 0).val := by
  unfold DotDims.lhsIdx
  rw [dif_neg (show ¬(0 : Fin S5000x256.rank) ∈ dot_S5000x256_S256x64_S5000x64_1_0_0_1_n_n.lhsBatch by decide), dif_pos (show (0 : Fin S5000x256.rank) ∈ dot_S5000x256_S256x64_S5000x64_1_0_0_1_n_n.lhsNonContracting by decide)]
  rfl
theorem lhsP1_1 (i : S5000x64.Idx) (q : dot_S5000x256_S256x64_S5000x64_1_0_0_1_n_n.contr.Idx) : (dot_S5000x256_S256x64_S5000x64_1_0_0_1_n_n.lhsIdx i q 1).val = (q ⟨0, by decide⟩).val :=
  dot_S5000x256_S256x64_S5000x64_1_0_0_1_n_n.lhsIdx_val_of_single rfl i q
theorem rhsP1_0 (i : S5000x64.Idx) (q : dot_S5000x256_S256x64_S5000x64_1_0_0_1_n_n.contr.Idx) : (dot_S5000x256_S256x64_S5000x64_1_0_0_1_n_n.rhsIdx i q 0).val = (q ⟨0, by decide⟩).val :=
  dot_S5000x256_S256x64_S5000x64_1_0_0_1_n_n.rhsIdx_val_of_single rfl i q
theorem rhsP1_1 (i : S5000x64.Idx) (q : dot_S5000x256_S256x64_S5000x64_1_0_0_1_n_n.contr.Idx) : (dot_S5000x256_S256x64_S5000x64_1_0_0_1_n_n.rhsIdx i q 1).val = (i 1).val := by
  unfold DotDims.rhsIdx
  rw [dif_neg (show ¬(1 : Fin S256x64.rank) ∈ dot_S5000x256_S256x64_S5000x64_1_0_0_1_n_n.rhsBatch by decide), dif_pos (show (1 : Fin S256x64.rank) ∈ dot_S5000x256_S256x64_S5000x64_1_0_0_1_n_n.rhsNonContracting by decide)]
  rfl

/-- An entry of the block product is the row of the left block against the column of the right factor. -/
theorem pay1_apply (a : FVec Ideal S5000x256 .f32) (w : FVec Ideal S256x64 .f32) (p : Fin 5000) (q : Fin 64) :
    k0_pay1 a w (ix2 p q) = ∑ k : Fin 256, a (ix2 p k) * w (ix2 k q) := by
  unfold k0_pay1
  show FloatOps.matmul (F := Ideal) dot_S5000x256_S256x64_S5000x64_1_0_0_1_n_n none a w (constant S5000x64 .f32 0x00000000#32) (ix2 p q) = _
  rw [Ideal.matmul_constant_zero_apply, ← Equiv.sum_comp (contrEquiv1 dot_S5000x256_S256x64_S5000x64_1_0_0_1_n_n 256 rfl rfl).symm]
  refine Finset.sum_congr rfl fun k _ => ?_
  have hk := contrEquiv1_symm_val dot_S5000x256_S256x64_S5000x64_1_0_0_1_n_n 256 rfl rfl k
  have el : dot_S5000x256_S256x64_S5000x64_1_0_0_1_n_n.lhsIdx (ix2 p q) ((contrEquiv1 dot_S5000x256_S256x64_S5000x64_1_0_0_1_n_n 256 rfl rfl).symm k) = ix2 p k :=
    funext fun a => Fin.ext (by
      match a with
      | ⟨0, _⟩ => exact lhsP1_0 _ _
      | ⟨1, _⟩ => exact (lhsP1_1 _ _).trans hk)
  have er : dot_S5000x256_S256x64_S5000x64_1_0_0_1_n_n.rhsIdx (ix2 p q) ((contrEquiv1 dot_S5000x256_S256x64_S5000x64_1_0_0_1_n_n 256 rfl rfl).symm k) = ix2 k q :=
    funext fun a => Fin.ext (by
      match a with
      | ⟨0, _⟩ => exact (rhsP1_0 _ _).trans hk
      | ⟨1, _⟩ => exact rhsP1_1 _ _)
  rw [el, er]

variable (V : (c : Dev nD) → (b : Ref sig .tc) → Buf (Elt Ideal) ((c : Thread nD τ).loc b))

/-- The index maps of the three windows, over the grid: the row blocks move with the point, the weights stay. -/
theorem idx1 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- What point `t` writes back is block `t` of the whole product. -/
theorem proj1_flushed (c : Dev nD) (x0 : S100000x256.Idx → EReal) (x2 : S256x64.Idx → EReal)
    (h0 : (V c main_arg0 : S100000x256.Idx → EReal) = x0) (h2 : (V c main_arg2 : S256x64.Idx → EReal) = x2) (t : Fin cfg0.N) :
    (dat0 V c).flushed 2 t = ((cfg0.win 2).blk t).view.read (Elt Ideal) (Cert.Spec.prod1 x0 x2) := by
  show (cfg0.win 2).cut (grid0.coords t) ((dat0 V c).after 2 t) = _
  rw [after0_2]
  unfold out0_2
  rw [View.canon_unit_zero hz]
  simp only [View.ld_unit_zero (S := S5000x256) hz, View.ld_unit_zero (S := S256x64) hz]
  obtain ⟨e00, e01, e10, e11, e20, e21⟩ := idx1 t
  funext y
  obtain ⟨p, q, rfl⟩ : ∃ (p : Fin 5000) (q : Fin 64), y = ix2 p q := ⟨y 0, y 1, eq_ix2 y⟩
  refine (pay1_apply _ _ p q).trans ?_
  rw [View.read_apply]
  unfold Cert.Spec.prod1
  refine Finset.sum_congr rfl fun k _ => ?_
  have hl : iblk0 V c 0 t (ix2 p k) = x0 (ix2 ((((cfg0.win 2).blk t).view.emb (ix2 p q)) 0) k) := by
    unfold iblk0
    rw [View.read_apply]
    show (V c main_arg0 : S100000x256.Idx → EReal) _ = _
    rw [h0]
    refine congrArg x0 (funext fun a => Fin.ext ?_)
    match a with
    | ⟨0, _⟩ => show win0_0.index t (0 : Fin 2) * 5000 + 1 * p.val = win0_2.index t (0 : Fin 2) * 5000 + 1 * p.val; omega
    | ⟨1, _⟩ => show win0_0.index t (1 : Fin 2) * 256 + 1 * k.val = k.val; omega
  have hr : iblk0 V c 1 t (ix2 k q) = x2 (ix2 k ((((cfg0.win 2).blk t).view.emb (ix2 p q)) 1)) := by
    unfold iblk0
    rw [View.read_apply]
    show (V c main_arg2 : S256x64.Idx → EReal) _ = _
    rw [h2]
    refine congrArg x2 (funext fun a => Fin.ext ?_)
    match a with
    | ⟨0, _⟩ => show win0_1.index t (0 : Fin 2) * 256 + 1 * k.val = k.val; omega
    | ⟨1, _⟩ => show win0_1.index t (1 : Fin 2) * 64 + 1 * q.val = win0_2.index t (1 : Fin 2) * 64 + 1 * q.val; omega
  rw [hl, hr]

/-- An index of the output is in point `t`'s block iff each coordinate is in the block's range. -/
theorem mem_blk1 (t : Fin cfg0.N) (i : S100000x64.Idx) :
    i ∈ ((cfg0.win 2).blk t).view.set ↔ ∀ a : Fin 2, win0_2.index t a * S5000x64.size a ≤ (i a).val ∧ (i a).val < win0_2.index t a * S5000x64.size a + S5000x64.size a := by
  show i ∈ ((View.whole main_v30).slice (win0_2.rect t)).set ↔ _
  rw [View.set_slice_whole, Rect.mem_set_unit]
  exact Iff.rfl

/-- The twenty blocks tile the output, so it ends holding the whole product. -/
theorem proj1_final (c : Dev nD) (x0 : S100000x256.Idx → EReal) (x2 : S256x64.Idx → EReal)
    (h0 : (V c main_arg0 : S100000x256.Idx → EReal) = x0) (h2 : (V c main_arg2 : S256x64.Idx → EReal) = x2) :
    (dat0 V c).arrAt 2 cfg0.N = Cert.Spec.prod1 x0 x2 :=
  (dat0 V c).arrAt_eq_of_cover 2 (Cert.Spec.prod1 x0 x2) (fun t _ => proj1_flushed V c x0 x2 h0 h2 t) fun i => by
    have hi0 : (i 0).val < 100000 := (i 0).isLt
    have hi1 : (i 1).val < 64 := (i 1).isLt
    have hN : cfg0.N = 20 := N_0
    refine ⟨⟨(i 0).val / 5000, by omega⟩, flush0_2 _, ?_⟩
    rw [mem_blk1]
    obtain ⟨-, -, -, -, e20, e21⟩ := idx1 ⟨(i 0).val / 5000, by omega⟩
    intro a
    match a with
    | ⟨0, _⟩ =>
      show win0_2.index _ (0 : Fin 2) * 5000 ≤ (i 0).val ∧ (i 0).val < win0_2.index _ (0 : Fin 2) * 5000 + 5000
      rw [e20]; show (i 0).val / 5000 * 5000 ≤ (i 0).val ∧ (i 0).val < (i 0).val / 5000 * 5000 + 5000; omega
    | ⟨1, _⟩ =>
      show win0_2.index _ (1 : Fin 2) * 64 ≤ (i 1).val ∧ (i 1).val < win0_2.index _ (1 : Fin 2) * 64 + 64
      rw [e21]; omega

end Cert.KernelIdeal.Hand

end
-- ==== Proof.Proj2.lean ====
/-
  The second launch: max(agg₁ + b₁, 0) · W₂, twenty row blocks of 5000 rows.

  Point t loads rows 5000·t … of the aggregated first layer, the bias as one row and the whole of W₂; adds the bias
  to every row, takes the maximum with zero, and multiplies by W₂ into a zero accumulator. An entry of the block
  product is the sum over the 64 columns of max(agg₁[r, k] + b₁[k], 0) · W₂[k, c]: the same entry of the whole
  array's function Spec.prod2. The blocks tile the rows, so the output ends holding Spec.prod2 of the whole arrays.
-/
import proofs.«118155_j584115552925_2_alg».proof.Proof.Gen.KernelIdeal.Frame
import proofs.«118155_j584115552925_2_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open Idealize.ShloMosaic Idealize.ShloMosaic.TcCoe Idealize.SL.Sem
open Idealize.ShloMosaic.Pipeline (Dat)
open Idealize.ShloMosaic.ValueIdx

namespace Cert.KernelIdeal.Hand

open Cert.KernelIdeal Cert.KernelIdeal.Gen

/-- The all-zero offset of a whole-block access. -/
theorem hzB : (![0, 0] : Fin 2 → Nat) = fun _ => 0 := funext fun a => by fin_cases a <;> rfl

theorem lhsP2_0 (i : S5000x40.Idx) (q : dot_S5000x64_S64x40_S5000x40_1_0_0_1_n_n.contr.Idx) : (dot_S5000x64_S64x40_S5000x40_1_0_0_1_n_n.lhsIdx i q 0).val = (i 0).val := by
  unfold DotDims.lhsIdx
  rw [dif_neg (show ¬(0 : Fin S5000x64.rank) ∈ dot_S5000x64_S64x40_S5000x40_1_0_0_1_n_n.lhsBatch by decide), dif_pos (show (0 : Fin S5000x64.rank) ∈ dot_S5000x64_S64x40_S5000x40_1_0_0_1_n_n.lhsNonContracting by decide)]
  rfl
theorem lhsP2_1 (i : S5000x40.Idx) (q : dot_S5000x64_S64x40_S5000x40_1_0_0_1_n_n.contr.Idx) : (dot_S5000x64_S64x40_S5000x40_1_0_0_1_n_n.lhsIdx i q 1).val = (q ⟨0, by decide⟩).val :=
  dot_S5000x64_S64x40_S5000x40_1_0_0_1_n_n.lhsIdx_val_of_single rfl i q
theorem rhsP2_0 (i : S5000x40.Idx) (q : dot_S5000x64_S64x40_S5000x40_1_0_0_1_n_n.contr.Idx) : (dot_S5000x64_S64x40_S5000x40_1_0_0_1_n_n.rhsIdx i q 0).val = (q ⟨0, by decide⟩).val :=
  dot_S5000x64_S64x40_S5000x40_1_0_0_1_n_n.rhsIdx_val_of_single rfl i q
theorem rhsP2_1 (i : S5000x40.Idx) (q : dot_S5000x64_S64x40_S5000x40_1_0_0_1_n_n.contr.Idx) : (dot_S5000x64_S64x40_S5000x40_1_0_0_1_n_n.rhsIdx i q 1).val = (i 1).val := by
  unfold DotDims.rhsIdx
  rw [dif_neg (show ¬(1 : Fin S64x40.rank) ∈ dot_S5000x64_S64x40_S5000x40_1_0_0_1_n_n.rhsBatch by decide), dif_pos (show (1 : Fin S64x40.rank) ∈ dot_S5000x64_S64x40_S5000x40_1_0_0_1_n_n.rhsNonContracting by decide)]
  rfl

/-- An entry of the second block product: the biased, rectified row of the left block against the column of W₂. -/
theorem pay2_apply (a : FVec Ideal S5000x64 .f32) (b : FVec Ideal S1x64 .f32) (w : FVec Ideal S64x40 .f32) (p : Fin 5000) (q : Fin 40) :
    k1_pay1 a b w (ix2 p q)
      = ∑ k : Fin 64, max (a (ix2 p k) + b (ix2 0 k)) (Ideal.ofBits .f32 0x00000000#32) * w (ix2 k q) := by
  unfold k1_pay1
  simp only [shapeCast_self]
  show FloatOps.matmul (F := Ideal) dot_S5000x64_S64x40_S5000x40_1_0_0_1_n_n none
    (maximumf (addf a (broadcastTo S5000x64 b broadcasts_S1x64_S5000x64)) (broadcast S5000x64 (Scalar.ofBits (F := Ideal) .f32 0x00000000#32)))
    w (constant S5000x40 .f32 0x00000000#32) (ix2 p q) = _
  rw [Ideal.matmul_constant_zero_apply, ← Equiv.sum_comp (contrEquiv1 dot_S5000x64_S64x40_S5000x40_1_0_0_1_n_n 64 rfl rfl).symm]
  refine Finset.sum_congr rfl fun k _ => ?_
  have hk := contrEquiv1_symm_val dot_S5000x64_S64x40_S5000x40_1_0_0_1_n_n 64 rfl rfl k
  have el : dot_S5000x64_S64x40_S5000x40_1_0_0_1_n_n.lhsIdx (ix2 p q) ((contrEquiv1 dot_S5000x64_S64x40_S5000x40_1_0_0_1_n_n 64 rfl rfl).symm k) = ix2 p k :=
    funext fun a => Fin.ext (by
      match a with
      | ⟨0, _⟩ => exact lhsP2_0 _ _
      | ⟨1, _⟩ => exact (lhsP2_1 _ _).trans hk)
  have er : dot_S5000x64_S64x40_S5000x40_1_0_0_1_n_n.rhsIdx (ix2 p q) ((contrEquiv1 dot_S5000x64_S64x40_S5000x40_1_0_0_1_n_n 64 rfl rfl).symm k) = ix2 k q :=
    funext fun a => Fin.ext (by
      match a with
      | ⟨0, _⟩ => exact (rhsP2_0 _ _).trans hk
      | ⟨1, _⟩ => exact rhsP2_1 _ _)
  rw [el, er]
  show max (a (ix2 p k) + broadcastTo S5000x64 b broadcasts_S1x64_S5000x64 (ix2 p k)) (Ideal.ofBits .f32 0x00000000#32) * w (ix2 k q) = _
  rw [broadcastTo_1b_ab_apply]

variable (V : (c : Dev nD) → (b : Ref sig .tc) → Buf (Elt Ideal) ((c : Thread nD τ).loc b))

/-- The index maps of the four windows over the grid: the row blocks move with the point, the bias and W₂ stay. -/
theorem idx2 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- What point `t` writes back is block `t` of the whole arrays' function. -/
theorem proj2_flushed (c : Dev nD) (a : S100000x64.Idx → EReal) (b : S1x64.Idx → EReal) (w : S64x40.Idx → EReal)
    (ha : (V c main_v43 : S100000x64.Idx → EReal) = a) (hb : (V c main_v44 : S1x64.Idx → EReal) = b)
    (hw : (V c main_arg4 : S64x40.Idx → EReal) = w) (t : Fin cfg1.N) :
    (dat1 V c).flushed 3 t = ((cfg1.win 3).blk t).view.read (Elt Ideal) (Cert.Spec.prod2 a b w) := by
  show (cfg1.win 3).cut (grid1.coords t) ((dat1 V c).after 3 t) = _
  rw [after1_3]
  unfold out1_3
  rw [View.canon_unit_zero hzB]
  simp only [View.ld_unit_zero (S := S5000x64) hzB, View.ld_unit_zero (S := S1x64) hzB, View.ld_unit_zero (S := S64x40) hzB]
  obtain ⟨e00, e01, e10, e11, e20, e21, e30, e31⟩ := idx2 t
  funext y
  obtain ⟨p, q, rfl⟩ : ∃ (p : Fin 5000) (q : Fin 40), y = ix2 p q := ⟨y 0, y 1, eq_ix2 y⟩
  refine (pay2_apply _ _ _ p q).trans ?_
  rw [View.read_apply]
  unfold Cert.Spec.prod2
  refine Finset.sum_congr rfl fun k _ => ?_
  have hl : iblk1 V c 0 t (ix2 p k) = a (ix2 ((((cfg1.win 3).blk t).view.emb (ix2 p q)) 0) k) := by
    unfold iblk1
    rw [View.read_apply]
    show (V c main_v43 : S100000x64.Idx → EReal) _ = _
    rw [ha]
    refine congrArg a (funext fun ax => Fin.ext ?_)
    match ax with
    | ⟨0, _⟩ => show win1_0.index t (0 : Fin 2) * 5000 + 1 * p.val = win1_3.index t (0 : Fin 2) * 5000 + 1 * p.val; omega
    | ⟨1, _⟩ => show win1_0.index t (1 : Fin 2) * 64 + 1 * k.val = k.val; omega
  have hm : iblk1 V c 1 t (ix2 0 k) = b (ix2 0 k) := by
    unfold iblk1
    rw [View.read_apply]
    show (V c main_v44 : S1x64.Idx → EReal) _ = _
    rw [hb]
    refine congrArg b (funext fun ax => Fin.ext ?_)
    match ax with
    | ⟨0, _⟩ => show win1_1.index t (0 : Fin 2) * 1 + 1 * 0 = 0; omega
    | ⟨1, _⟩ => show win1_1.index t (1 : Fin 2) * 64 + 1 * k.val = k.val; omega
  have hr : iblk1 V c 2 t (ix2 k q) = w (ix2 k ((((cfg1.win 3).blk t).view.emb (ix2 p q)) 1)) := by
    unfold iblk1
    rw [View.read_apply]
    show (V c main_arg4 : S64x40.Idx → EReal) _ = _
    rw [hw]
    refine congrArg w (funext fun ax => Fin.ext ?_)
    match ax with
    | ⟨0, _⟩ => show win1_2.index t (0 : Fin 2) * 64 + 1 * k.val = k.val; omega
    | ⟨1, _⟩ => show win1_2.index t (1 : Fin 2) * 40 + 1 * q.val = win1_3.index t (1 : Fin 2) * 40 + 1 * q.val; omega
  rw [hl, hm, hr]

/-- An index of the output is in point `t`'s block iff each coordinate is in the block's range. -/
theorem mem_blk2 (t : Fin cfg1.N) (i : S100000x40.Idx) :
    i ∈ ((cfg1.win 3).blk t).view.set ↔ ∀ a : Fin 2, win1_3.index t a * S5000x40.size a ≤ (i a).val ∧ (i a).val < win1_3.index t a * S5000x40.size a + S5000x40.size a := by
  show i ∈ ((View.whole main_v45).slice (win1_3.rect t)).set ↔ _
  rw [View.set_slice_whole, Rect.mem_set_unit]
  exact Iff.rfl

/-- The twenty blocks tile the output, so it ends holding the whole arrays' function. -/
theorem proj2_final (c : Dev nD) (a : S100000x64.Idx → EReal) (b : S1x64.Idx → EReal) (w : S64x40.Idx → EReal)
    (ha : (V c main_v43 : S100000x64.Idx → EReal) = a) (hb : (V c main_v44 : S1x64.Idx → EReal) = b)
    (hw : (V c main_arg4 : S64x40.Idx → EReal) = w) :
    (dat1 V c).arrAt 3 cfg1.N = Cert.Spec.prod2 a b w :=
  (dat1 V c).arrAt_eq_of_cover 3 (Cert.Spec.prod2 a b w) (fun t _ => proj2_flushed V c a b w ha hb hw t) fun i => by
    have hi0 : (i 0).val < 100000 := (i 0).isLt
    have hi1 : (i 1).val < 40 := (i 1).isLt
    have hN : cfg1.N = 20 := N_1
    refine ⟨⟨(i 0).val / 5000, by omega⟩, flush1_3 _, ?_⟩
    rw [mem_blk2]
    obtain ⟨-, -, -, -, -, -, e30, e31⟩ := idx2 ⟨(i 0).val / 5000, by omega⟩
    intro ax
    match ax with
    | ⟨0, _⟩ =>
      show win1_3.index _ (0 : Fin 2) * 5000 ≤ (i 0).val ∧ (i 0).val < win1_3.index _ (0 : Fin 2) * 5000 + 5000
      rw [e30]; show (i 0).val / 5000 * 5000 ≤ (i 0).val ∧ (i 0).val < (i 0).val / 5000 * 5000 + 5000; omega
    | ⟨1, _⟩ =>
      show win1_3.index _ (1 : Fin 2) * 40 ≤ (i 1).val ∧ (i 1).val < win1_3.index _ (1 : Fin 2) * 40 + 40
      rw [e31]; omega

end Cert.KernelIdeal.Hand

end
-- ==== Proof.LibColumn.lean ====
/-
  Small general lemmas: the keep-dimension column forms of a cast and a broadcast read at an index, and a lane
  maximum, a lane sum and the host's maximum-reduce over the columns of a rank-2 array read at a row.
-/
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open Idealize.ShloMosaic Idealize.ShloMosaic.TcCoe Idealize.SL.Sem
open Idealize.ShloMosaic.Pipeline (Dat)
open Idealize.ShloMosaic.ValueIdx

namespace Cert.Lib

variable {α : Type}

/-- An `[a]` array cast to `[a, 1]` reads, at `(p, u)`, the operand at `p`, whatever the unit coordinate `u`. -/
theorem shapeCast_a_a1_apply {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    omega)

/-- An `[a, 1]` array broadcast to `[a, b]` reads, at `(p, c)`, the operand's row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A reduced row index with the column put back is the pair. -/
theorem lift_row {n m : ℕ} (h : (⟨2, ![n, m]⟩ : Shape).Reduces [1] (⟨1, ![n]⟩ : Shape)) (r : Fin n)
    (k : Fin ((⟨2, ![n, m]⟩ : Shape).size 1)) : h.lift (ix1 r) k = ix2 r (⟨k.val, k.isLt⟩ : Fin m) := by
  funext c; apply Fin.ext
  fin_cases c <;> rfl

/-- A lane maximum of an `[n, m]` vector at row `r` is the fold of `max` over that row. -/
theorem multiReduction_max_row {n m : ℕ} (z : FVec Ideal ⟨2, ![n, m]⟩ .f32)
    (h : (⟨2, ![n, m]⟩ : Shape).Reduces [1] (⟨1, ![n]⟩ : Shape)) (hφ : FKind.Formats .f32)
    (hacc : (0xFF800000#32 : BitVec 32) = 0xFF800000#32) (r : Fin n) :
    multiReduction .maximumf [1] ⟨1, ![n]⟩ z 0xFF800000#32 h hφ hacc (ix1 r)
      = (Finset.univ : Finset (Fin m)).fold max (Ideal.ofBits .f32 0xFF800000#32) fun j => z (ix2 r j) := by
  refine (Ideal.multiReduction_maximumf_single z 0xFF800000#32 h hφ hacc (ix1 r)).trans ?_
  have hf : (z ∘ h.lift (ix1 r)) = fun k : Fin m => z (ix2 r k) := funext fun k => congrArg z (lift_row h r k)
  exact congrArg (fun f => Finset.fold max (Ideal.ofBits .f32 0xFF800000#32) f (Finset.univ : Finset (Fin m))) hf

/-- A lane sum of an `[n, m]` vector at row `r` is the sum over that row. -/
theorem multiReduction_add_row {n m : ℕ} (z : FVec Ideal ⟨2, ![n, m]⟩ .f32)
    (h : (⟨2, ![n, m]⟩ : Shape).Reduces [1] (⟨1, ![n]⟩ : Shape)) (hφ : FKind.Formats .f32)
    (hacc : (0x00000000#32 : BitVec 32) = 0x00000000#32) (r : Fin n) :
    multiReduction .add [1] ⟨1, ![n]⟩ z 0x00000000#32 h hφ hacc (ix1 r) = ∑ j : Fin m, z (ix2 r j) := by
  refine (Ideal.multiReduction_add_single z 0x00000000#32 h hφ hacc (ix1 r)).trans ?_
  exact Finset.sum_congr rfl fun k _ => congrArg z (lift_row h r k)

/-- The host's reduce with a maximum body over the columns, at row `r`: the fold of `max` over that row from the initial value. -/
theorem hostReduce_max_row {n m : ℕ} (x : FVec Ideal ⟨2, ![n, m]⟩ .f32) (init : (⟨0, ![]⟩ : Shape).Idx → EReal)
    (h' : (⟨2, ![n, m]⟩ : Shape).ReducesTo [1] (⟨1, ![n]⟩ : Shape)) (h : (⟨2, ![n, m]⟩ : Shape).Reduces [1] (⟨1, ![n]⟩ : Shape))
    (hu : 0 < (⟨0, ![]⟩ : Shape).numel) (r : Fin n) :
    Host.reduce FloatOps.maximumf x init h' hu (ix1 r) = (Finset.univ : Finset (Fin m)).fold max (init ix0) fun j => x (ix2 r j) := by
  rw [Host.reduce_eq_fold_single FloatOps.maximumf x init h' h hu]
  have hf : (x ∘ h.lift (ix1 r)) = fun k : Fin m => x (ix2 r k) := funext fun k => congrArg x (lift_row h r k)
  have hi : init (Shape.Idx.first hu) = init ix0 := congrArg init (eq_ix0 _)
  rw [hi]
  exact congrArg (fun f => Finset.fold max (init ix0) f (Finset.univ : Finset (Fin m))) hf

/-- The logarithm and the exponential of a vector at an index are those of the element. -/
theorem log_apply {s : Shape} {φ : FTy} (x : FVec Ideal s φ) (i : s.Idx) : log x i = Ideal.log (x i) := rfl
theorem exp_apply {s : Shape} {φ : FTy} (x : FVec Ideal s φ) (i : s.Idx) : exp x i = Ideal.exp (x i) := rfl

end Cert.Lib

end
-- ==== Proof.LogSm.lean ====
/-
  The third launch: the row-wise log-softmax of agg₂ + b₂, twenty row blocks of 5000 rows.

  Point t loads rows 5000·t … of the aggregated second layer and the bias as one row. With z = block + bias, the body
  takes each row's maximum M over its forty columns (from −∞), subtracts it, sums the exponentials of the differences
  over the row, and stores (z − M) − log of that sum. Every step is row-local, so the entry (p, c) of the block is the
  log-softmax of row p of z at column c (Spec.lsmRow), and row p of the block's z is row 5000·t + p of the whole
  array's. The blocks tile the rows, so the result array ends holding Spec.lsm of the whole arrays.
-/
import proofs.«118155_j584115552925_2_alg».proof.Proof.Gen.KernelIdeal.Frame
import proofs.«118155_j584115552925_2_alg».proof.Proof.Spec
import proofs.«118155_j584115552925_2_alg».proof.Proof.LibColumn
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open Idealize.ShloMosaic Idealize.ShloMosaic.TcCoe Idealize.SL.Sem
open Idealize.ShloMosaic.Pipeline (Dat)
open Idealize.ShloMosaic.ValueIdx

namespace Cert.KernelIdeal.Hand

open Cert.KernelIdeal Cert.KernelIdeal.Gen

/-- The all-zero offset of a whole-block access. -/
theorem hzC : (![0, 0] : Fin 2 → Nat) = fun _ => 0 := funext fun a => by fin_cases a <;> rfl

/-- An entry of the stored block: the log-softmax of the block's biased row. -/
theorem pay3_apply (a : FVec Ideal S5000x40 .f32) (b : FVec Ideal S1x40 .f32) (p : Fin 5000) (q : Fin 40) :
    k2_pay1 (F := Ideal) a b (ix2 p q) = Cert.Spec.lsmRow (Cert.Spec.biased (n := 5000) a b p) q := by
  have hM : ∀ (hφ : FKind.Formats .f32) (hacc : (0xFF800000#32 : BitVec 32) = 0xFF800000#32),
      multiReduction .maximumf [1] S5000 (addf a (broadcastTo S5000x40 b broadcasts_S1x40_S5000x40)) 0xFF800000#32
          reduces_S5000x40_S5000 hφ hacc (ix1 p)
        = Cert.Spec.rowMax (Cert.Spec.biased (n := 5000) a b p) := fun hφ hacc => by
    refine (Cert.Lib.multiReduction_max_row (n := 5000) (m := 40) _ reduces_S5000x40_S5000 hφ hacc p).trans ?_
    unfold Cert.Spec.rowMax Cert.Spec.biased
    simp only [addf_apply, broadcastTo_1b_ab_apply]
  unfold k2_pay1
  simp only [shapeCast_self]
  simp only [subf_apply, Cert.Lib.broadcastTo_a1_ab_apply, Cert.Lib.log_apply, Cert.Lib.shapeCast_a_a1_apply, addf_apply,
    broadcastTo_1b_ab_apply]
  unfold Cert.Spec.lsmRow
  refine congrArg₂ (fun u v => (a (ix2 p q) + b (ix2 0 q) - u) - Ideal.log v) (hM _ _) ?_
  refine (Cert.Lib.multiReduction_add_row (n := 5000) (m := 40) _ reduces_S5000x40_S5000 _ _ p).trans ?_
  refine Finset.sum_congr rfl fun j _ => ?_
  simp only [Cert.Lib.exp_apply, subf_apply, Cert.Lib.broadcastTo_a1_ab_apply, Cert.Lib.shapeCast_a_a1_apply, addf_apply,
    broadcastTo_1b_ab_apply]
  exact congrArg (fun u => Ideal.exp (a (ix2 p j) + b (ix2 0 j) - u)) (hM _ _)

variable (V : (c : Dev nD) → (b : Ref sig .tc) → Buf (Elt Ideal) ((c : Thread nD τ).loc b))

/-- The index maps of the three windows over the grid: the row blocks move with the point, the bias stays. -/
theorem idx3 : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- What point `t` writes back is block `t` of the whole arrays' log-softmax. -/
theorem logsm_flushed (c : Dev nD) (a : S100000x40.Idx → EReal) (b : S1x40.Idx → EReal)
    (ha : (V c main_v58 : S100000x40.Idx → EReal) = a) (hb : (V c main_v59 : S1x40.Idx → EReal) = b) (t : Fin cfg2.N) :
    (dat2 V c).flushed 2 t = ((cfg2.win 2).blk t).view.read (Elt Ideal) (Cert.Spec.lsm a b) := by
  show (cfg2.win 2).cut (grid2.coords t) ((dat2 V c).after 2 t) = _
  rw [after2_2]
  unfold out2_2
  rw [View.canon_unit_zero hzC]
  simp only [View.ld_unit_zero (S := S5000x40) hzC, View.ld_unit_zero (S := S1x40) hzC]
  obtain ⟨e00, e01, e10, e11, e20, e21⟩ := idx3 t
  funext y
  obtain ⟨p, q, rfl⟩ : ∃ (p : Fin 5000) (q : Fin 40), y = ix2 p q := ⟨y 0, y 1, eq_ix2 y⟩
  refine (pay3_apply _ _ p q).trans ?_
  rw [View.read_apply]
  unfold Cert.Spec.lsm
  have h0 : ∀ j : Fin 40, iblk2 V c 0 t (ix2 p j) = a (ix2 ((((cfg2.win 2).blk t).view.emb (ix2 p q)) 0) j) := fun j => by
    unfold iblk2
    rw [View.read_apply]
    show (V c main_v58 : S100000x40.Idx → EReal) _ = _
    rw [ha]
    refine congrArg a (funext fun ax => Fin.ext ?_)
    match ax with
    | ⟨0, _⟩ => show win2_0.index t (0 : Fin 2) * 5000 + 1 * p.val = win2_2.index t (0 : Fin 2) * 5000 + 1 * p.val; omega
    | ⟨1, _⟩ => show win2_0.index t (1 : Fin 2) * 40 + 1 * j.val = j.val; omega
  have h1 : ∀ j : Fin 40, iblk2 V c 1 t (ix2 0 j) = b (ix2 0 j) := fun j => by
    unfold iblk2
    rw [View.read_apply]
    show (V c main_v59 : S1x40.Idx → EReal) _ = _
    rw [hb]
    refine congrArg b (funext fun ax => Fin.ext ?_)
    match ax with
    | ⟨0, _⟩ => show win2_1.index t (0 : Fin 2) * 1 + 1 * 0 = 0; omega
    | ⟨1, _⟩ => show win2_1.index t (1 : Fin 2) * 40 + 1 * j.val = j.val; omega
  have hq : (((cfg2.win 2).blk t).view.emb (ix2 p q)) 1 = q :=
    Fin.ext (by show win2_2.index t (1 : Fin 2) * 40 + 1 * q.val = q.val; omega)
  have hbz : Cert.Spec.biased (n := 5000) (iblk2 V c 0 t) (iblk2 V c 1 t) p
      = Cert.Spec.biased (n := 100000) a b ((((cfg2.win 2).blk t).view.emb (ix2 p q)) 0) :=
    funext fun j => by unfold Cert.Spec.biased; rw [h0 j, h1 j]
  rw [hbz]
  exact congrArg (Cert.Spec.lsmRow _) hq.symm

/-- An index of the output is in point `t`'s block iff each coordinate is in the block's range. -/
theorem mem_blk3 (t : Fin cfg2.N) (i : S100000x40.Idx) :
    i ∈ ((cfg2.win 2).blk t).view.set ↔ ∀ a : Fin 2, win2_2.index t a * S5000x40.size a ≤ (i a).val ∧ (i a).val < win2_2.index t a * S5000x40.size a + S5000x40.size a := by
  show i ∈ ((View.whole main_v60).slice (win2_2.rect t)).set ↔ _
  rw [View.set_slice_whole, Rect.mem_set_unit]
  exact Iff.rfl

/-- The twenty blocks tile the result, so it ends holding the whole arrays' log-softmax. -/
theorem logsm_final (c : Dev nD) (a : S100000x40.Idx → EReal) (b : S1x40.Idx → EReal)
    (ha : (V c main_v58 : S100000x40.Idx → EReal) = a) (hb : (V c main_v59 : S1x40.Idx → EReal) = b) :
    (dat2 V c).arrAt 2 cfg2.N = Cert.Spec.lsm a b :=
  (dat2 V c).arrAt_eq_of_cover 2 (Cert.Spec.lsm a b) (fun t _ => logsm_flushed V c a b ha hb t) fun i => by
    have hi0 : (i 0).val < 100000 := (i 0).isLt
    have hi1 : (i 1).val < 40 := (i 1).isLt
    have hN : cfg2.N = 20 := N_2
    refine ⟨⟨(i 0).val / 5000, by omega⟩, flush2_2 _, ?_⟩
    rw [mem_blk3]
    obtain ⟨-, -, -, -, e20, e21⟩ := idx3 ⟨(i 0).val / 5000, by omega⟩
    intro ax
    match ax with
    | ⟨0, _⟩ =>
      show win2_2.index _ (0 : Fin 2) * 5000 ≤ (i 0).val ∧ (i 0).val < win2_2.index _ (0 : Fin 2) * 5000 + 5000
      rw [e20]; show (i 0).val / 5000 * 5000 ≤ (i 0).val ∧ (i 0).val < (i 0).val / 5000 * 5000 + 5000; omega
    | ⟨1, _⟩ =>
      show win2_2.index _ (1 : Fin 2) * 40 ≤ (i 1).val ∧ (i 1).val < win2_2.index _ (1 : Fin 2) * 40 + 40
      rw [e21]; omega

end Cert.KernelIdeal.Hand

end
-- ==== Proof.RefSpec.lean ====
/-
  The reference's three dense stages are the specification's functions.

  Its first matrix product is Spec.prod1 of the arguments; its second, applied to the rectified sum of the first
  aggregation and the broadcast bias, is Spec.prod2 of the aggregation, the bias as one row and W₂; and its
  log_softmax of the second aggregation plus the broadcast bias is Spec.lsm: the maximum of −∞ and the row's maximum is
  the row's maximum, and the sum from the initial value 0 is the row's sum. Also: a bias cast to one row (the kernel's
  program) and a bias broadcast to one row (the reference) are the same row.
-/
import proofs.«118155_j584115552925_2_alg».proof.Proof.RefRead
import proofs.«118155_j584115552925_2_alg».proof.Proof.Spec
import proofs.«118155_j584115552925_2_alg».proof.Proof.LibColumn
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open Idealize.ShloMosaic Idealize.ShloMosaic.TcCoe Idealize.SL.Sem
open Idealize.ShloMosaic.Pipeline (Dat)
open Idealize.ShloMosaic.ValueIdx

namespace Cert.ReferenceIdeal.Hand

open Cert.ReferenceIdeal Cert.ReferenceIdeal.Gen Cert.ReferenceIdeal.ReadP

variable (x0 : (⟨S100000x256, .f32⟩ : BufTy).Contents (Elt Ideal)) (x1 : (⟨S2x3200000, .i32⟩ : BufTy).Contents (Elt Ideal))
  (x2 : (⟨S256x64, .f32⟩ : BufTy).Contents (Elt Ideal)) (x3 : (⟨S64, .f32⟩ : BufTy).Contents (Elt Ideal))
  (x4 : (⟨S64x40, .f32⟩ : BufTy).Contents (Elt Ideal)) (x5 : (⟨S40, .f32⟩ : BufTy).Contents (Elt Ideal))

/-- The first product. -/
theorem ref_prod1 : val_main_v0 (F := Ideal) x0 x2 = Cert.Spec.prod1 x0 x2 := by
  funext i
  obtain ⟨r, c, rfl⟩ : ∃ (r : Fin 100000) (c : Fin 64), i = ix2 r c := ⟨i 0, i 1, eq_ix2 i⟩
  rw [val_main_v0_apply]
  unfold Cert.Spec.prod1
  refine Finset.sum_congr rfl fun k _ => ?_
  have el : lidx_main_v0 (ix2 r c) k = ix2 r k := funext fun a => by match a with | ⟨0, _⟩ => rfl | ⟨1, _⟩ => rfl
  have er : ridx_main_v0 (ix2 r c) k = ix2 k c := funext fun a => by match a with | ⟨0, _⟩ => rfl | ⟨1, _⟩ => rfl
  rw [el, er]

/-- The second product, of the rectified biased aggregation. -/
theorem ref_prod2 : val_main_v48 (F := Ideal) x0 x1 x2 x3 x4
    = Cert.Spec.prod2 (val_main_v43 (F := Ideal) x0 x1 x2) (val_main_v44 (F := Ideal) x3) x4 := by
  funext i
  obtain ⟨r, c, rfl⟩ : ∃ (r : Fin 100000) (c : Fin 40), i = ix2 r c := ⟨i 0, i 1, eq_ix2 i⟩
  rw [val_main_v48_apply]
  unfold Cert.Spec.prod2
  refine Finset.sum_congr rfl fun k _ => ?_
  have el : lidx_main_v48 (ix2 r c) k = ix2 r k := funext fun a => by match a with | ⟨0, _⟩ => rfl | ⟨1, _⟩ => rfl
  have er : ridx_main_v48 (ix2 r c) k = ix2 k c := funext fun a => by match a with | ⟨0, _⟩ => rfl | ⟨1, _⟩ => rfl
  have eb : idx_main_v45 (ix2 r k) = ix2 (0 : Fin 1) k := funext fun a => by match a with | ⟨0, _⟩ => rfl | ⟨1, _⟩ => rfl
  rw [el, er, val_main_v47_apply, val_main_v46_apply, val_main_v45_apply, val_main_call1_v0_apply, val_main_call1_cst_apply, eb]
  rfl

/-- Row `r` of the second aggregation plus the broadcast bias. -/
theorem ref_biased (r : Fin 100000) (j : Fin 40) :
    val_main_v94 (F := Ideal) x0 x1 x2 x3 x4 x5 (ix2 r j)
      = Cert.Spec.biased (n := 100000) (val_main_v91 (F := Ideal) x0 x1 x2 x3 x4) (val_main_v92 (F := Ideal) x5) r j := by
  have eb : idx_main_v93 (ix2 r j) = ix2 (0 : Fin 1) j := funext fun a => by match a with | ⟨0, _⟩ => rfl | ⟨1, _⟩ => rfl
  rw [val_main_v94_apply, val_main_v93_apply, eb]
  rfl

/-- The maximum the reference subtracts from row `r` is the row's maximum. -/
theorem ref_rowmax (r : Fin 100000) :
    val_main_call3_v2 (F := Ideal) x0 x1 x2 x3 x4 x5 (ix1 r)
      = Cert.Spec.rowMax (Cert.Spec.biased (n := 100000) (val_main_v91 (F := Ideal) x0 x1 x2 x3 x4) (val_main_v92 (F := Ideal) x5) r) := by
  rw [val_main_call3_v2_apply, val_main_call3_v1_apply, val_main_call3_cst_0_apply]
  unfold val_main_call3_v0
  rw [Cert.Lib.hostReduce_max_row (n := 100000) (m := 40) _ _ reducesTo_S100000x40_S100000_d1 (by decide) h_S_ r]
  have hb : ∀ y : EReal, max (Ideal.ofBits .f32 0xFF800000#32) y = y := fun y => by simp [Ideal.ofBits, Ideal.ieee]
  show max (Ideal.ofBits .f32 0xFF800000#32) _ = _
  rw [hb]
  unfold Cert.Spec.rowMax
  have hf : (fun j : Fin 40 => val_main_v94 (F := Ideal) x0 x1 x2 x3 x4 x5 (ix2 r j))
      = Cert.Spec.biased (n := 100000) (val_main_v91 (F := Ideal) x0 x1 x2 x3 x4) (val_main_v92 (F := Ideal) x5) r :=
    funext fun j => ref_biased x0 x1 x2 x3 x4 x5 r j
  rw [hf]
  rfl

/-- An entry of the shifted array: the biased entry less its row's maximum. -/
theorem ref_shifted (r : Fin 100000) (j : Fin 40) :
    val_main_call3_v5 (F := Ideal) x0 x1 x2 x3 x4 x5 (ix2 r j)
      = Cert.Spec.biased (n := 100000) (val_main_v91 (F := Ideal) x0 x1 x2 x3 x4) (val_main_v92 (F := Ideal) x5) r j
        - Cert.Spec.rowMax (Cert.Spec.biased (n := 100000) (val_main_v91 (F := Ideal) x0 x1 x2 x3 x4) (val_main_v92 (F := Ideal) x5) r) := by
  have e3 : idx_main_call3_v3 (idx_main_call3_v4 (ix2 r j)) = ix1 r := funext fun a => by match a with | ⟨0, _⟩ => rfl
  rw [val_main_call3_v5_apply, val_main_call3_v4_apply, val_main_call3_v3_apply, e3, ref_rowmax, ref_biased]
  rfl

/-- The log-softmax. -/
theorem ref_lsm : val_main_v95 (F := Ideal) x0 x1 x2 x3 x4 x5
    = Cert.Spec.lsm (val_main_v91 (F := Ideal) x0 x1 x2 x3 x4) (val_main_v92 (F := Ideal) x5) := by
  funext i
  obtain ⟨r, c, rfl⟩ : ∃ (r : Fin 100000) (c : Fin 40), i = ix2 r c := ⟨i 0, i 1, eq_ix2 i⟩
  have e8 : idx_main_call3_v8 (idx_main_call3_v10 (ix2 r c)) = ix1 r := funext fun a => by match a with | ⟨0, _⟩ => rfl
  have e7 : ∀ k : Fin 40, idx_main_call3_v7 (ix1 r) k = ix2 r k := fun k => funext fun a => by match a with | ⟨0, _⟩ => rfl | ⟨1, _⟩ => rfl
  rw [val_main_v95_apply, ref_shifted, val_main_call3_v10_apply, val_main_call3_v9_apply, val_main_call3_v8_apply, e8,
    val_main_call3_v7_apply, val_main_call3_cst_1_apply]
  have hs : ∀ k : Fin 40, val_main_call3_v6 (F := Ideal) x0 x1 x2 x3 x4 x5 (idx_main_call3_v7 (ix1 r) k)
      = Ideal.exp (Cert.Spec.biased (n := 100000) (val_main_v91 (F := Ideal) x0 x1 x2 x3 x4) (val_main_v92 (F := Ideal) x5) r k
        - Cert.Spec.rowMax (Cert.Spec.biased (n := 100000) (val_main_v91 (F := Ideal) x0 x1 x2 x3 x4) (val_main_v92 (F := Ideal) x5) r)) := fun k => by
    rw [e7 k, val_main_call3_v6_apply, ref_shifted]
    exact Ideal.hostUnary_exp_def _
  rw [Finset.sum_congr rfl fun k _ => hs k, Ideal.ofBits_def, Ideal.ofBits_zero_f32, zero_add, Ideal.hostUnary_log_def]
  unfold Cert.Spec.lsm Cert.Spec.lsmRow
  rfl

/-- The bias as one row, by a cast or by a broadcast: the same row. -/
theorem bias_row64 (h : S64.ShapeCasts S1x64) : shapeCast S1x64 x3 h = val_main_v44 (F := Ideal) x3 := by
  funext i
  obtain ⟨u, k, rfl⟩ : ∃ (u : Fin 1) (k : Fin 64), i = ix2 u k := ⟨i 0, i 1, eq_ix2 i⟩
  have e : idx_main_v44 (ix2 u k) = ix1 k := funext fun a => by match a with | ⟨0, _⟩ => rfl
  rw [val_main_v44_apply, e]
  exact shapeCast_a_1a_apply x3 _ u k
theorem bias_row40 (h : S40.ShapeCasts S1x40) : shapeCast S1x40 x5 h = val_main_v92 (F := Ideal) x5 := by
  funext i
  obtain ⟨u, k, rfl⟩ : ∃ (u : Fin 1) (k : Fin 40), i = ix2 u k := ⟨i 0, i 1, eq_ix2 i⟩
  have e : idx_main_v92 (ix2 u k) = ix1 k := funext fun a => by match a with | ⟨0, _⟩ => rfl
  rw [val_main_v92_apply, e]
  exact shapeCast_a_1a_apply x5 _ u k

end Cert.ReferenceIdeal.Hand

end
-- ==== Proof.KValue.lean ====
/-
  The value the idealized kernel's program leaves in its result, as the reference's last stage of the arguments.

  Walking the program's segments in order: before the first launch the arguments are as launched, so the launch
  leaves the whole product x · W₁ (the reference's first stage); the host stretch aggregates it with the reference's
  lists and weights (its stage 43) and casts the bias to one row; the second launch leaves the second product of the
  rectified biased aggregation (stage 48); the next stretch aggregates that (stage 91) and casts the second bias; the
  third launch leaves the row-wise log-softmax of the biased aggregation — the reference's result stage.
-/
import proofs.«118155_j584115552925_2_alg».proof.Proof.Gen.KernelIdeal.Frame
import proofs.«118155_j584115552925_2_alg».proof.Proof.RefRead
import proofs.«118155_j584115552925_2_alg».proof.Proof.Spec
import proofs.«118155_j584115552925_2_alg».proof.Proof.HostChain
import proofs.«118155_j584115552925_2_alg».proof.Proof.Proj1
import proofs.«118155_j584115552925_2_alg».proof.Proof.Proj2
import proofs.«118155_j584115552925_2_alg».proof.Proof.LogSm
import proofs.«118155_j584115552925_2_alg».proof.Proof.RefSpec

set_option maxRecDepth 16384

noncomputable section

open Idealize.ShloMosaic Idealize.ShloMosaic.TcCoe Idealize.SL.Sem
open Idealize.ShloMosaic.Pipeline (Dat)
open Idealize.ShloMosaic.ValueIdx

namespace Cert.KernelIdeal.Hand

open Cert.KernelIdeal Cert.KernelIdeal.Gen
open Cert.ReferenceIdeal.ReadP Cert.ReferenceIdeal.Hand

variable (m : (ℓ : Loc nD τ sig) → Buf (Elt Ideal) ℓ) (ρ : Dev nD → PrngReg)

/-- After the first launch its output holds the reference's first product. -/
theorem W4_xw (c : Dev nD) :
    W4 m ρ c (Proc.devRef .tc main_v30) = val_main_v0 (F := Ideal) (m ((c : Thread nD τ).loc main_arg0)) (m ((c : Thread nD τ).loc main_arg2)) :=
  (W4_arr m ρ c 2).trans ((proj1_final (V3 m ρ) c _ _ (W3_arg0 m ρ c) (W3_arg2 m ρ c)).trans (ref_prod1 _ _).symm)

/-- Before the second launch the first aggregation is the reference's. -/
theorem W5_v43 (c : Dev nD) :
    W5 m ρ c (Proc.devRef .tc main_v43) = val_main_v43 (F := Ideal) (m ((c : Thread nD τ).loc main_arg0)) (m ((c : Thread nD τ).loc main_arg1)) (m ((c : Thread nD τ).loc main_arg2)) :=
  (W5_agg m ρ c _ (W4_xw m ρ c)).trans rfl

/-- After the second launch its output holds the reference's second product. -/
theorem W6_xw (c : Dev nD) :
    W6 m ρ c (Proc.devRef .tc main_v45) = val_main_v48 (F := Ideal) (m ((c : Thread nD τ).loc main_arg0)) (m ((c : Thread nD τ).loc main_arg1)) (m ((c : Thread nD τ).loc main_arg2)) (m ((c : Thread nD τ).loc main_arg3)) (m ((c : Thread nD τ).loc main_arg4)) :=
  (W6_arr m ρ c 3).trans ((proj2_final (V5 m ρ) c _ _ _ (W5_v43 m ρ c) ((W5_bias m ρ c).trans (bias_row64 _ _)) (W5_arg4 m ρ c)).trans
    (ref_prod2 _ _ _ _ _).symm)

/-- Before the third launch the second aggregation is the reference's. -/
theorem W7_v58 (c : Dev nD) :
    W7 m ρ c (Proc.devRef .tc main_v58) = val_main_v91 (F := Ideal) (m ((c : Thread nD τ).loc main_arg0)) (m ((c : Thread nD τ).loc main_arg1)) (m ((c : Thread nD τ).loc main_arg2)) (m ((c : Thread nD τ).loc main_arg3)) (m ((c : Thread nD τ).loc main_arg4)) :=
  (W7_agg m ρ c _ (W6_xw m ρ c)).trans rfl

/-- After the third launch the result holds the reference's result stage. -/
theorem W8_result (c : Dev nD) :
    W8 m ρ c (Proc.devRef .tc main_v60)
      = val_main_v95 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) :=
  (W8_arr m ρ c 2).trans ((logsm_final (V7 m ρ) c _ _ (W7_v58 m ρ c) ((W7_bias m ρ c).trans (bias_row40 _ _))).trans
    (ref_lsm _ _ _ _ _ _).symm)

end Cert.KernelIdeal.Hand

end
-- ==== Proof.RefStages.lean ====
/-
  The reference's run, read a stretch of operations at a time.

  The reference is one straight line of 138 host operations. Every execution ends with each buffer at the fold of the
  operations' results over the launch contents; that fold is read here in five stretches — the first product with the
  lists, degrees and edge weights; the first aggregation, bias, rectifier and second product; the lists and weights
  once more (the reference computes them per layer); the second aggregation and bias; the log-softmax — each stretch's
  results named by the stage functions of the arguments, from what the stretch before left. Nothing is computed twice
  as a term: a stretch sees its inputs as named values.
-/
import proofs.«118155_j584115552925_2_alg».proof.Proof.RefOps
import proofs.«118155_j584115552925_2_alg».proof.Proof.RefRead
import Idealize.ShloMosaic.Lib.StableHlo.Run

set_option maxRecDepth 16384

noncomputable section

open Idealize.ShloMosaic Idealize.ShloMosaic.TcCoe Idealize.SL.Sem
open Idealize.ShloMosaic.Pipeline (Dat)
open Idealize.ShloMosaic.ValueIdx

namespace Cert.ReferenceIdeal.Hand

open Cert.ReferenceIdeal Cert.ReferenceIdeal.Gen Cert.ReferenceIdeal.ValueP Cert.ReferenceIdeal.ReadP
open Idealize.ShloMosaic.StableHlo Idealize.SL.Sem

variable {F : FTy → Type} [FloatOps F]

/-- Running two lines one after the other folds the second over what the first left. -/
theorem after_append (l₁ l₂ : List (HloOp τ sig (Elt F))) (V : Valuation τ sig (Elt F)) :
    after (l₁ ++ l₂) V = after l₂ (after l₁ V) := by
  induction l₁ generalizing V with
  | nil => rfl
  | cons op l ih => exact ih _

/-- A line cut after its first `k` operations. -/
theorem after_split (k : Nat) (l : List (HloOp τ sig (Elt F))) (V : Valuation τ sig (Elt F)) :
    after l V = after (l.drop k) (after (l.take k) V) := by
  conv_lhs => rw [← List.take_append_drop k l]
  exact after_append _ _ _

/-! ## First stretch: the first product, the lists, the degrees and the edge weights -/

theorem stA_v0 (W : Valuation τ sig (Elt F)) :
    after (List.take 41 (ops (F := F))) W (Proc.devRef .tc main_v0) = val_main_v0 (F := F) (W (Proc.devRef .tc main_arg0)) (W (Proc.devRef .tc main_arg2)) := by
  simp only [ops, List.take_succ_cons, List.take_zero, List.drop_succ_cons, List.drop_zero]
  after_results_simp
  rfl
theorem stA_v4 (W : Valuation τ sig (Elt F)) :
    after (List.take 41 (ops (F := F))) W (Proc.devRef .tc main_v4) = val_main_v4 (F := F) (W (Proc.devRef .tc main_arg1)) := by
  simp only [ops, List.take_succ_cons, List.take_zero, List.drop_succ_cons, List.drop_zero]
  after_results_simp
  rfl
theorem stA_v7 (W : Valuation τ sig (Elt F)) :
    after (List.take 41 (ops (F := F))) W (Proc.devRef .tc main_v7) = val_main_v7 (F := F) (W (Proc.devRef .tc main_arg1)) := by
  simp only [ops, List.take_succ_cons, List.take_zero, List.drop_succ_cons, List.drop_zero]
  after_results_simp
  rfl
theorem stA_v30 (W : Valuation τ sig (Elt F)) :
    after (List.take 41 (ops (F := F))) W (Proc.devRef .tc main_v30) = val_main_v30 (F := F) (W (Proc.devRef .tc main_arg1)) := by
  simp only [ops, List.take_succ_cons, List.take_zero, List.drop_succ_cons, List.drop_zero]
  after_results_simp
  rfl
theorem stA_arg1 (W : Valuation τ sig (Elt F)) : after (List.take 41 (ops (F := F))) W (Proc.devRef .tc main_arg1) = W (Proc.devRef .tc main_arg1) := by
  simp only [ops, List.take_succ_cons, List.take_zero, List.drop_succ_cons, List.drop_zero]
  after_results_simp
theorem stA_arg3 (W : Valuation τ sig (Elt F)) : after (List.take 41 (ops (F := F))) W (Proc.devRef .tc main_arg3) = W (Proc.devRef .tc main_arg3) := by
  simp only [ops, List.take_succ_cons, List.take_zero, List.drop_succ_cons, List.drop_zero]
  after_results_simp
theorem stA_arg4 (W : Valuation τ sig (Elt F)) : after (List.take 41 (ops (F := F))) W (Proc.devRef .tc main_arg4) = W (Proc.devRef .tc main_arg4) := by
  simp only [ops, List.take_succ_cons, List.take_zero, List.drop_succ_cons, List.drop_zero]
  after_results_simp
theorem stA_arg5 (W : Valuation τ sig (Elt F)) : after (List.take 41 (ops (F := F))) W (Proc.devRef .tc main_arg5) = W (Proc.devRef .tc main_arg5) := by
  simp only [ops, List.take_succ_cons, List.take_zero, List.drop_succ_cons, List.drop_zero]
  after_results_simp

/-! ## Second stretch: aggregate, add the bias, rectify, multiply by W₂ -/

theorem stB_v48 (W : Valuation τ sig (Elt F)) (x0 : (⟨S100000x256, .f32⟩ : BufTy).Contents (Elt F)) (x1 : (⟨S2x3200000, .i32⟩ : BufTy).Contents (Elt F)) (x2 : (⟨S256x64, .f32⟩ : BufTy).Contents (Elt F)) (x3 : (⟨S64, .f32⟩ : BufTy).Contents (Elt F)) (x4 : (⟨S64x40, .f32⟩ : BufTy).Contents (Elt F))
    (h0 : W (Proc.devRef .tc main_v0) = val_main_v0 (F := F) x0 x2) (h4 : W (Proc.devRef .tc main_v4) = val_main_v4 (F := F) x1)
    (h7 : W (Proc.devRef .tc main_v7) = val_main_v7 (F := F) x1) (h30 : W (Proc.devRef .tc main_v30) = val_main_v30 (F := F) x1)
    (h3 : W (Proc.devRef .tc main_arg3) = x3) (hx4 : W (Proc.devRef .tc main_arg4) = x4) :
    after (List.take 23 (List.drop 41 (ops (F := F)))) W (Proc.devRef .tc main_v48) = val_main_v48 (F := F) x0 x1 x2 x3 x4 := by
  simp only [ops, List.take_succ_cons, List.take_zero, List.drop_succ_cons, List.drop_zero]
  after_results_simp
  rw [h0, h4, h7, h30, h3, hx4]
  rfl
theorem stB_arg1 (W : Valuation τ sig (Elt F)) : after (List.take 23 (List.drop 41 (ops (F := F)))) W (Proc.devRef .tc main_arg1) = W (Proc.devRef .tc main_arg1) := by
  simp only [ops, List.take_succ_cons, List.take_zero, List.drop_succ_cons, List.drop_zero]
  after_results_simp
theorem stB_arg5 (W : Valuation τ sig (Elt F)) : after (List.take 23 (List.drop 41 (ops (F := F)))) W (Proc.devRef .tc main_arg5) = W (Proc.devRef .tc main_arg5) := by
  simp only [ops, List.take_succ_cons, List.take_zero, List.drop_succ_cons, List.drop_zero]
  after_results_simp

/-! ## Third stretch: the lists and the edge weights once more -/

theorem stC_v52 (W : Valuation τ sig (Elt F)) :
    after (List.take 40 (List.drop 64 (ops (F := F)))) W (Proc.devRef .tc main_v52) = val_main_v52 (F := F) (W (Proc.devRef .tc main_arg1)) := by
  simp only [ops, List.take_succ_cons, List.take_zero, List.drop_succ_cons, List.drop_zero]
  after_results_simp
  rfl
theorem stC_v55 (W : Valuation τ sig (Elt F)) :
    after (List.take 40 (List.drop 64 (ops (F := F)))) W (Proc.devRef .tc main_v55) = val_main_v55 (F := F) (W (Proc.devRef .tc main_arg1)) := by
  simp only [ops, List.take_succ_cons, List.take_zero, List.drop_succ_cons, List.drop_zero]
  after_results_simp
  rfl
theorem stC_v78 (W : Valuation τ sig (Elt F)) :
    after (List.take 40 (List.drop 64 (ops (F := F)))) W (Proc.devRef .tc main_v78) = val_main_v78 (F := F) (W (Proc.devRef .tc main_arg1)) := by
  simp only [ops, List.take_succ_cons, List.take_zero, List.drop_succ_cons, List.drop_zero]
  after_results_simp
  rfl
theorem stC_v48 (W : Valuation τ sig (Elt F)) : after (List.take 40 (List.drop 64 (ops (F := F)))) W (Proc.devRef .tc main_v48) = W (Proc.devRef .tc main_v48) := by
  simp only [ops, List.take_succ_cons, List.take_zero, List.drop_succ_cons, List.drop_zero]
  after_results_simp
theorem stC_arg5 (W : Valuation τ sig (Elt F)) : after (List.take 40 (List.drop 64 (ops (F := F)))) W (Proc.devRef .tc main_arg5) = W (Proc.devRef .tc main_arg5) := by
  simp only [ops, List.take_succ_cons, List.take_zero, List.drop_succ_cons, List.drop_zero]
  after_results_simp

/-! ## Fourth stretch: the second aggregation and its bias -/

theorem stD_v94 (W : Valuation τ sig (Elt F)) (x0 : (⟨S100000x256, .f32⟩ : BufTy).Contents (Elt F)) (x1 : (⟨S2x3200000, .i32⟩ : BufTy).Contents (Elt F)) (x2 : (⟨S256x64, .f32⟩ : BufTy).Contents (Elt F)) (x3 : (⟨S64, .f32⟩ : BufTy).Contents (Elt F)) (x4 : (⟨S64x40, .f32⟩ : BufTy).Contents (Elt F)) (x5 : (⟨S40, .f32⟩ : BufTy).Contents (Elt F))
    (h48 : W (Proc.devRef .tc main_v48) = val_main_v48 (F := F) x0 x1 x2 x3 x4) (h52 : W (Proc.devRef .tc main_v52) = val_main_v52 (F := F) x1)
    (h55 : W (Proc.devRef .tc main_v55) = val_main_v55 (F := F) x1) (h78 : W (Proc.devRef .tc main_v78) = val_main_v78 (F := F) x1)
    (h5 : W (Proc.devRef .tc main_arg5) = x5) :
    after (List.take 19 (List.drop 104 (ops (F := F)))) W (Proc.devRef .tc main_v94) = val_main_v94 (F := F) x0 x1 x2 x3 x4 x5 := by
  simp only [ops, List.take_succ_cons, List.take_zero, List.drop_succ_cons, List.drop_zero]
  after_results_simp
  rw [h48, h52, h55, h78, h5]
  rfl

/-! ## Fifth stretch: the log-softmax, in short pieces (the called function's buffers are typed references, read
    through changes of type that are the identity; each piece closes with its inputs as opaque values) -/

/-- A typed reference's two changes of type undo each other. -/
theorem ofBuf_toBuf {T : BufTy} (x : TRef sig T) (v : T.Contents (Elt F)) : x.ofBuf (x.toBuf v) = v := by
  rcases x with ⟨r, h, h1, h2⟩
  subst h
  rfl

/-- A typed reference's change of type back is the identity. -/
theorem ofBuf_heq {T : BufTy} (x : TRef sig T) (v : x.ref.ty.Contents (Elt F)) : HEq (x.ofBuf v) v := by
  rcases x with ⟨r, h, h1, h2⟩
  subst h
  rfl

/-- A typed reference's change of type is the identity. -/
theorem toBuf_heq {T : BufTy} (x : TRef sig T) (v : T.Contents (Elt F)) : HEq (x.toBuf v) v := by
  rcases x with ⟨r, h, h1, h2⟩
  subst h
  rfl

/-- The row maxima, from −∞. -/
theorem stE1_red (W : Valuation τ sig (Elt F)) (x0 : (⟨S100000x256, .f32⟩ : BufTy).Contents (Elt F)) (x1 : (⟨S2x3200000, .i32⟩ : BufTy).Contents (Elt F)) (x2 : (⟨S256x64, .f32⟩ : BufTy).Contents (Elt F)) (x3 : (⟨S64, .f32⟩ : BufTy).Contents (Elt F)) (x4 : (⟨S64x40, .f32⟩ : BufTy).Contents (Elt F)) (x5 : (⟨S40, .f32⟩ : BufTy).Contents (Elt F))
    (h94 : W (Proc.devRef .tc main_v94) = val_main_v94 (F := F) x0 x1 x2 x3 x4 x5) :
    after (List.take 2 (List.drop 123 (ops (F := F)))) W (Proc.devRef .tc main_call3_v0) = val_main_call3_v0 (F := F) x0 x1 x2 x3 x4 x5 := by
  simp only [ops, List.take_succ_cons, List.take_zero, List.drop_succ_cons, List.drop_zero]
  after_results_simp
  rw [h94]
  simp only [ofBuf_toBuf]
  have e1 : (TRef.of (T := ⟨S100000x40, .f32⟩) main_v94).ofBuf (Val := Elt F) (val_main_v94 (F := F) x0 x1 x2 x3 x4 x5) = val_main_v94 (F := F) x0 x1 x2 x3 x4 x5 := rfl
  rw [e1]
  unfold val_main_call3_v0 val_main_call3_cst
  exact eq_of_heq (toBuf_heq _ _)
theorem stE1a_v94 (W : Valuation τ sig (Elt F)) : after (List.take 2 (List.drop 123 (ops (F := F)))) W (Proc.devRef .tc main_v94) = W (Proc.devRef .tc main_v94) := by
  simp only [ops, List.take_succ_cons, List.take_zero, List.drop_succ_cons, List.drop_zero]
  after_results_simp

/-- The same maxima, joined once more with −∞ as the reference does. -/
theorem stE1_max (W : Valuation τ sig (Elt F)) (x0 : (⟨S100000x256, .f32⟩ : BufTy).Contents (Elt F)) (x1 : (⟨S2x3200000, .i32⟩ : BufTy).Contents (Elt F)) (x2 : (⟨S256x64, .f32⟩ : BufTy).Contents (Elt F)) (x3 : (⟨S64, .f32⟩ : BufTy).Contents (Elt F)) (x4 : (⟨S64x40, .f32⟩ : BufTy).Contents (Elt F)) (x5 : (⟨S40, .f32⟩ : BufTy).Contents (Elt F))
    (h0 : W (Proc.devRef .tc main_call3_v0) = val_main_call3_v0 (F := F) x0 x1 x2 x3 x4 x5) :
    after (List.take 3 (List.drop 125 (ops (F := F)))) W (Proc.devRef .tc main_call3_v2) = val_main_call3_v2 (F := F) x0 x1 x2 x3 x4 x5 := by
  simp only [ops, List.take_succ_cons, List.take_zero, List.drop_succ_cons, List.drop_zero]
  after_results_simp
  rw [h0]
  simp only [ofBuf_toBuf]
  have e0 : (TRef.of (T := ⟨S100000, .f32⟩) main_call3_v0).ofBuf (Val := Elt F) (val_main_call3_v0 (F := F) x0 x1 x2 x3 x4 x5)
      = val_main_call3_v0 (F := F) x0 x1 x2 x3 x4 x5 := eq_of_heq (ofBuf_heq _ _)
  rw [e0]
  unfold val_main_call3_v2
  refine (eq_of_heq (toBuf_heq _ _)).trans ?_
  generalize val_main_call3_v0 (F := F) x0 x1 x2 x3 x4 x5 = y
  rfl
theorem stE1b_v94 (W : Valuation τ sig (Elt F)) : after (List.take 3 (List.drop 125 (ops (F := F)))) W (Proc.devRef .tc main_v94) = W (Proc.devRef .tc main_v94) := by
  simp only [ops, List.take_succ_cons, List.take_zero, List.drop_succ_cons, List.drop_zero]
  after_results_simp

/-- The array less its row maxima. -/
theorem stE2_shift (W : Valuation τ sig (Elt F)) (x0 : (⟨S100000x256, .f32⟩ : BufTy).Contents (Elt F)) (x1 : (⟨S2x3200000, .i32⟩ : BufTy).Contents (Elt F)) (x2 : (⟨S256x64, .f32⟩ : BufTy).Contents (Elt F)) (x3 : (⟨S64, .f32⟩ : BufTy).Contents (Elt F)) (x4 : (⟨S64x40, .f32⟩ : BufTy).Contents (Elt F)) (x5 : (⟨S40, .f32⟩ : BufTy).Contents (Elt F))
    (h94 : W (Proc.devRef .tc main_v94) = val_main_v94 (F := F) x0 x1 x2 x3 x4 x5)
    (h2 : W (Proc.devRef .tc main_call3_v2) = val_main_call3_v2 (F := F) x0 x1 x2 x3 x4 x5) :
    after (List.take 3 (List.drop 128 (ops (F := F)))) W (Proc.devRef .tc main_call3_v5) = val_main_call3_v5 (F := F) x0 x1 x2 x3 x4 x5 := by
  simp only [ops, List.take_succ_cons, List.take_zero, List.drop_succ_cons, List.drop_zero]
  after_results_simp
  rw [h94, h2]
  rfl

/-- The row sums of the exponentials. -/
theorem stE3_sum (W : Valuation τ sig (Elt F)) (x0 : (⟨S100000x256, .f32⟩ : BufTy).Contents (Elt F)) (x1 : (⟨S2x3200000, .i32⟩ : BufTy).Contents (Elt F)) (x2 : (⟨S256x64, .f32⟩ : BufTy).Contents (Elt F)) (x3 : (⟨S64, .f32⟩ : BufTy).Contents (Elt F)) (x4 : (⟨S64x40, .f32⟩ : BufTy).Contents (Elt F)) (x5 : (⟨S40, .f32⟩ : BufTy).Contents (Elt F))
    (h5 : W (Proc.devRef .tc main_call3_v5) = val_main_call3_v5 (F := F) x0 x1 x2 x3 x4 x5) :
    after (List.take 3 (List.drop 131 (ops (F := F)))) W (Proc.devRef .tc main_call3_v7) = val_main_call3_v7 (F := F) x0 x1 x2 x3 x4 x5 := by
  simp only [ops, List.take_succ_cons, List.take_zero, List.drop_succ_cons, List.drop_zero]
  after_results_simp
  rw [h5]
  rfl
theorem stE3_v5 (W : Valuation τ sig (Elt F)) : after (List.take 3 (List.drop 131 (ops (F := F)))) W (Proc.devRef .tc main_call3_v5) = W (Proc.devRef .tc main_call3_v5) := by
  simp only [ops, List.take_succ_cons, List.take_zero, List.drop_succ_cons, List.drop_zero]
  after_results_simp

/-- The shifted array less the logarithms of the row sums. -/
theorem stE4_out (W : Valuation τ sig (Elt F)) (x0 : (⟨S100000x256, .f32⟩ : BufTy).Contents (Elt F)) (x1 : (⟨S2x3200000, .i32⟩ : BufTy).Contents (Elt F)) (x2 : (⟨S256x64, .f32⟩ : BufTy).Contents (Elt F)) (x3 : (⟨S64, .f32⟩ : BufTy).Contents (Elt F)) (x4 : (⟨S64x40, .f32⟩ : BufTy).Contents (Elt F)) (x5 : (⟨S40, .f32⟩ : BufTy).Contents (Elt F))
    (h5 : W (Proc.devRef .tc main_call3_v5) = val_main_call3_v5 (F := F) x0 x1 x2 x3 x4 x5)
    (h7 : W (Proc.devRef .tc main_call3_v7) = val_main_call3_v7 (F := F) x0 x1 x2 x3 x4 x5) :
    after (List.drop 134 (ops (F := F))) W (Proc.devRef .tc main_v95) = val_main_v95 (F := F) x0 x1 x2 x3 x4 x5 := by
  simp only [ops, List.take_succ_cons, List.take_zero, List.drop_succ_cons, List.drop_zero]
  after_results_simp
  rw [h5, h7]
  rfl

end Cert.ReferenceIdeal.Hand

end
-- ==== Proof.RefLine.lean ====
/-
  The reference's whole line of operations: the stretches of RefStages put end to end. After each stretch the
  contents it leaves are taken as an unknown valuation about which only the named values are kept.
-/
import proofs.«118155_j584115552925_2_alg».proof.Proof.RefStages

set_option maxRecDepth 16384

noncomputable section

open Idealize.ShloMosaic Idealize.ShloMosaic.TcCoe Idealize.SL.Sem
open Idealize.ShloMosaic.Pipeline (Dat)
open Idealize.ShloMosaic.ValueIdx

namespace Cert.ReferenceIdeal.Hand

open Cert.ReferenceIdeal Cert.ReferenceIdeal.Gen Cert.ReferenceIdeal.ValueP Cert.ReferenceIdeal.ReadP
open Idealize.ShloMosaic.StableHlo Idealize.SL.Sem

variable {F : FTy → Type} [FloatOps F]

/-! ## The whole line -/

/-- After the whole line the result buffer holds the last stage of the arguments. -/
theorem ref_value (W : Valuation τ sig (Elt F)) :
    after (ops (F := F)) W (Proc.devRef .tc main_v95)
      = val_main_v95 (F := F) (W (Proc.devRef .tc main_arg0)) (W (Proc.devRef .tc main_arg1)) (W (Proc.devRef .tc main_arg2)) (W (Proc.devRef .tc main_arg3)) (W (Proc.devRef .tc main_arg4)) (W (Proc.devRef .tc main_arg5)) := by
  rw [after_split 41 (ops (F := F)) W]
  have a0 := stA_v0 W
  have a4 := stA_v4 W
  have a7 := stA_v7 W
  have a30 := stA_v30 W
  have a1 := stA_arg1 W
  have a3 := stA_arg3 W
  have ax4 := stA_arg4 W
  have a5 := stA_arg5 W
  generalize after (List.take 41 (ops (F := F))) W = WA at *
  rw [after_split 23 (List.drop 41 (ops (F := F))) WA]
  have b48 := stB_v48 WA _ _ _ _ _ a0 a4 a7 a30 a3 ax4
  have b1 := (stB_arg1 WA).trans a1
  have b5 := (stB_arg5 WA).trans a5
  generalize after (List.take 23 (List.drop 41 (ops (F := F)))) WA = WB at *
  rw [List.drop_drop, after_split 40 (List.drop 64 (ops (F := F))) WB]
  have c52 := stC_v52 WB
  have c55 := stC_v55 WB
  have c78 := stC_v78 WB
  have c48 := (stC_v48 WB).trans b48
  have c5 := (stC_arg5 WB).trans b5
  rw [b1] at c52 c55 c78
  generalize after (List.take 40 (List.drop 64 (ops (F := F)))) WB = WC at *
  rw [List.drop_drop, after_split 19 (List.drop 104 (ops (F := F))) WC]
  have d94 := stD_v94 WC _ _ _ _ _ _ c48 c52 c55 c78 c5
  generalize after (List.take 19 (List.drop 104 (ops (F := F)))) WC = WD at *
  rw [List.drop_drop, after_split 2 (List.drop 123 (ops (F := F))) WD]
  have e0 := stE1_red WD _ _ _ _ _ _ d94
  have e94 := (stE1a_v94 WD).trans d94
  generalize after (List.take 2 (List.drop 123 (ops (F := F)))) WD = WE at *
  rw [List.drop_drop, after_split 3 (List.drop 125 (ops (F := F))) WE]
  have f2 := stE1_max WE _ _ _ _ _ _ e0
  have f94 := (stE1b_v94 WE).trans e94
  generalize after (List.take 3 (List.drop 125 (ops (F := F)))) WE = WF at *
  rw [List.drop_drop, after_split 3 (List.drop 128 (ops (F := F))) WF]
  have g5 := stE2_shift WF _ _ _ _ _ _ f94 f2
  generalize after (List.take 3 (List.drop 128 (ops (F := F)))) WF = WG at *
  rw [List.drop_drop, after_split 3 (List.drop 131 (ops (F := F))) WG]
  have i7 := stE3_sum WG _ _ _ _ _ _ g5
  have i5 := (stE3_v5 WG).trans g5
  generalize after (List.take 3 (List.drop 131 (ops (F := F)))) WG = WH at *
  rw [List.drop_drop]
  exact stE4_out WH _ _ _ _ _ _ i5 i7

end Cert.ReferenceIdeal.Hand

end
-- ==== Proof.RefRunH.lean ====
/-
  The reference's run: every weakly fair execution terminates with the result buffer at the last stage of the
  arguments (RefLine) and the arguments, which no operation writes, as launched.
-/
import proofs.«118155_j584115552925_2_alg».proof.Proof.RefLine

set_option maxRecDepth 16384

noncomputable section

open Idealize.ShloMosaic Idealize.ShloMosaic.TcCoe Idealize.SL.Sem
open Idealize.ShloMosaic.Pipeline (Dat)
open Idealize.ShloMosaic.ValueIdx

namespace Cert.ReferenceIdeal.Hand

open Cert.ReferenceIdeal Cert.ReferenceIdeal.Gen Cert.ReferenceIdeal.ValueP Cert.ReferenceIdeal.ReadP
open Idealize.ShloMosaic.StableHlo Idealize.SL.Sem

variable {F : FTy → Type} [FloatOps F]

set_option maxHeartbeats 55200000 in
/-- Every weakly fair execution of the reference terminates, nothing faulting, with the result at the last stage of the
    arguments and the arguments as launched. -/
theorem ref_run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v95) = val_main_v95 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c => ⟨(h c main_v95).trans (ref_value _),
      (h c main_arg0).trans (by after_results_simp <;> rfl),
      (h c main_arg1).trans (by after_results_simp <;> rfl),
      (h c main_arg2).trans (by after_results_simp <;> rfl),
      (h c main_arg3).trans (by after_results_simp <;> rfl),
      (h c main_arg4).trans (by after_results_simp <;> rfl),
      (h c main_arg5).trans (by after_results_simp <;> rfl)⟩)
    (run_seq scopedRefs_eq scopedSems_eq defs main (fun _ => ops) main_eq (fun _ => ops_sub) m ρ)

end Cert.ReferenceIdeal.Hand

end
-- ==== Proof.lean ====
/-
  The certificate of a two-layer graph convolution kernel against its jnp reference, at the exact values.

  Both programs compute log_softmax(Â·relu(Â·(x·W₁) + b₁)·W₂ + b₂), where Â scales each edge (with a self-loop per
  node) by the inverse square roots of the two endpoint degrees. The kernel's program runs the two matrix products
  (the second with the first layer's bias and rectifier in front) and the final bias and row-wise log-softmax as
  three launches over twenty row blocks, and the gathers and scatter-adds of Â on the host between them, by the very
  operations the reference uses. At the exact values a block of a product is a block of the whole product and the
  log-softmax is row-local, so each launch leaves the reference's stage; the host stretches are the reference's own.
  No algebraic law beyond reading sums index by index is needed, and the precondition is never opened.

  The three frames: the two programs with launches by the generated frame certificates, the reference by its run.
  The idealization rewrote nothing, so that claim is trivial.
-/
import proofs.«118155_j584115552925_2_alg».proof.Defs
import proofs.«118155_j584115552925_2_alg».proof.Proof.Gen.Kernel
import proofs.«118155_j584115552925_2_alg».proof.Proof.Gen.Kernel.Skeleton
import proofs.«118155_j584115552925_2_alg».proof.Proof.Gen.Kernel.Launch
import proofs.«118155_j584115552925_2_alg».proof.Proof.Gen.Kernel.Points
import proofs.«118155_j584115552925_2_alg».proof.Proof.Gen.Kernel.Frame
import proofs.«118155_j584115552925_2_alg».proof.Proof.Gen.KernelIdeal
import proofs.«118155_j584115552925_2_alg».proof.Proof.Gen.KernelIdeal.Skeleton
import proofs.«118155_j584115552925_2_alg».proof.Proof.Gen.KernelIdeal.Launch
import proofs.«118155_j584115552925_2_alg».proof.Proof.Gen.KernelIdeal.Points
import proofs.«118155_j584115552925_2_alg».proof.Proof.Gen.KernelIdeal.Frame
import proofs.«118155_j584115552925_2_alg».proof.Proof.Gen.ReferenceIdeal
import proofs.«118155_j584115552925_2_alg».proof.Proof.Gen.Pre_finite_inputs
import proofs.«118155_j584115552925_2_alg».proof.Proof.KRun
import proofs.«118155_j584115552925_2_alg».proof.Proof.KValue
import proofs.«118155_j584115552925_2_alg».proof.Proof.RefRunH
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Hand.ref_run (F := Ideal) m ρ)

/-- Both runs end with the result at the reference's last stage of arguments that agree. -/
theorem algebraic : Cert.algebraic_KernelIdeal_ReferenceIdeal := by
  intro m ρ m' ρ' _ hagree
  refine ⟨_, (θ_run Cert.KernelIdeal.defs _ _).mono (fun r h c => ⟨(h c).1.trans (Cert.KernelIdeal.Hand.W8_result m ρ c), (h c).2⟩)
    (Cert.KernelIdeal.Hand.run_result (F := Ideal) m ρ), ?_⟩
  refine (θ_run Cert.ReferenceIdeal.defs _ _).mono (fun r h c => ⟨(h c).1.trans ?_, (h c).2⟩)
    (Cert.ReferenceIdeal.Hand.ref_run (F := Ideal) m' ρ')
  rw [(hagree c).1, (hagree c).2.1, (hagree c).2.2.1, (hagree c).2.2.2.1, (hagree c).2.2.2.2.1, (hagree c).2.2.2.2.2]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
